-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v224)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v224) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x39 : Shape := ⟨2, ![4096, 39]⟩
abbrev S39x9 : Shape := ⟨2, ![39, 9]⟩
abbrev S19500x128 : Shape := ⟨2, ![19500, 128]⟩
abbrev S390000x1 : Shape := ⟨2, ![390000, 1]⟩
abbrev S9984x128 : Shape := ⟨2, ![9984, 128]⟩
abbrev S390000x2 : Shape := ⟨2, ![390000, 2]⟩
abbrev S390000x4 : Shape := ⟨2, ![390000, 4]⟩
abbrev S19968x128 : Shape := ⟨2, ![19968, 128]⟩
abbrev S_ : Shape := ⟨0, ![]⟩

class Facts : Prop where
  bcast_S_S39x9 : S_.BroadcastsInDim S39x9 (![] : Fin 0 → Fin S39x9.rank)
  reducesTo_S39x9_S_d0_1 : S39x9.ReducesTo [0, 1] S_
  h_S_ : 0 < S_.numel
  bcast_S_S19500x128 : S_.BroadcastsInDim S19500x128 (![] : Fin 0 → Fin S19500x128.rank)
  reducesTo_S19500x128_S_d0_1 : S19500x128.ReducesTo [0, 1] S_
  bcast_S_S9984x128 : S_.BroadcastsInDim S9984x128 (![] : Fin 0 → Fin S9984x128.rank)
  reducesTo_S9984x128_S_d0_1 : S9984x128.ReducesTo [0, 1] S_
  bcast_S_S19968x128 : S_.BroadcastsInDim S19968x128 (![] : Fin 0 → Fin S19968x128.rank)
  reducesTo_S19968x128_S_d0_1 : S19968x128.ReducesTo [0, 1] S_

variable [Facts]

def fn_part2 {F : FTy → Type} [FloatOps F] (main_arg14 : FVec F S19968x128 .f32) (main_v33 : IVec S_ 1) : IVec S_ 1 :=
  let main_v34 : FVec F S19968x128 .f32 := Host.absf main_arg14
  let main_cst_12 : FVec F S_ .f32 := constant S_ .f32 0x7F800000#32
  let main_v35 : FVec F S19968x128 .f32 := broadcastInDim S19968x128 ![] bcast_S_S19968x128 main_cst_12
  let main_v36 : IVec S19968x128 1 := cmpf .olt main_v34 main_v35
  let main_c_13 : IVec S_ 1 := constantI S_ 1 1#1
  let main_v37 : IVec S_ 1 := (fun x v => Host.reduce IntOp.andi x v reducesTo_S19968x128_S_d0_1 h_S_) main_v36 main_c_13
  let main_v38 : IVec S_ 1 := andi main_v33 main_v37
  main_v38

def fn_part1 {F : FTy → Type} [FloatOps F] (main_arg8 : FVec F S9984x128 .f32) (main_arg10 : FVec F S19968x128 .f32) (main_arg12 : FVec F S19968x128 .f32) (main_arg14 : FVec F S19968x128 .f32) (main_v13 : IVec S_ 1) (main_v16 : IVec S9984x128 1) : IVec S_ 1 :=
  let main_c_5 : IVec S_ 1 := constantI S_ 1 1#1
  let main_v17 : IVec S_ 1 := (fun x v => Host.reduce IntOp.andi x v reducesTo_S9984x128_S_d0_1 h_S_) main_v16 main_c_5
  let main_v18 : IVec S_ 1 := andi main_v13 main_v17
  let main_v19 : FVec F S9984x128 .f32 := Host.absf main_arg8
  let main_cst_6 : FVec F S_ .f32 := constant S_ .f32 0x7F800000#32
  let main_v20 : FVec F S9984x128 .f32 := broadcastInDim S9984x128 ![] bcast_S_S9984x128 main_cst_6
  let main_v21 : IVec S9984x128 1 := cmpf .olt main_v19 main_v20
  let main_c_7 : IVec S_ 1 := constantI S_ 1 1#1
  let main_v22 : IVec S_ 1 := (fun x v => Host.reduce IntOp.andi x v reducesTo_S9984x128_S_d0_1 h_S_) main_v21 main_c_7
  let main_v23 : IVec S_ 1 := andi main_v18 main_v22
  let main_v24 : FVec F S19968x128 .f32 := Host.absf main_arg10
  let main_cst_8 : FVec F S_ .f32 := constant S_ .f32 0x7F800000#32
  let main_v25 : FVec F S19968x128 .f32 := broadcastInDim S19968x128 ![] bcast_S_S19968x128 main_cst_8
  let main_v26 : IVec S19968x128 1 := cmpf .olt main_v24 main_v25
  let main_c_9 : IVec S_ 1 := constantI S_ 1 1#1
  let main_v27 : IVec S_ 1 := (fun x v => Host.reduce IntOp.andi x v reducesTo_S19968x128_S_d0_1 h_S_) main_v26 main_c_9
  let main_v28 : IVec S_ 1 := andi main_v23 main_v27
  let main_v29 : FVec F S19968x128 .f32 := Host.absf main_arg12
  let main_cst_10 : FVec F S_ .f32 := constant S_ .f32 0x7F800000#32
  let main_v30 : FVec F S19968x128 .f32 := broadcastInDim S19968x128 ![] bcast_S_S19968x128 main_cst_10
  let main_v31 : IVec S19968x128 1 := cmpf .olt main_v29 main_v30
  let main_c_11 : IVec S_ 1 := constantI S_ 1 1#1
  let main_v32 : IVec S_ 1 := (fun x v => Host.reduce IntOp.andi x v reducesTo_S19968x128_S_d0_1 h_S_) main_v31 main_c_11
  let main_v33 : IVec S_ 1 := andi main_v28 main_v32
  fn_part2 (F := F) main_arg14 main_v33

def fn {F : FTy → Type} [FloatOps F] (main_arg0 : IVec S4096x39 32) (main_arg1 : FVec F S39x9 .f32) (main_arg2 : FVec F S19500x128 .f32) (main_arg3 : IVec S390000x1 32) (main_arg4 : FVec F S9984x128 .f32) (main_arg5 : IVec S390000x1 32) (main_arg6 : FVec F S9984x128 .f32) (main_arg7 : IVec S390000x2 32) (main_arg8 : FVec F S9984x128 .f32) (main_arg9 : IVec S390000x4 32) (main_arg10 : FVec F S19968x128 .f32) (main_arg11 : IVec S390000x1 32) (main_arg12 : FVec F S19968x128 .f32) (main_arg13 : IVec S390000x2 32) (main_arg14 : FVec F S19968x128 .f32) (main_arg15 : IVec S390000x4 32) : IVec S_ 1 :=
  let main_v0 : FVec F S39x9 .f32 := Host.absf main_arg1
  let main_cst : FVec F S_ .f32 := constant S_ .f32 0x7F800000#32
  let main_v1 : FVec F S39x9 .f32 := broadcastInDim S39x9 ![] bcast_S_S39x9 main_cst
  let main_v2 : IVec S39x9 1 := cmpf .olt main_v0 main_v1
  let main_c : IVec S_ 1 := constantI S_ 1 1#1
  let main_v3 : IVec S_ 1 := (fun x v => Host.reduce IntOp.andi x v reducesTo_S39x9_S_d0_1 h_S_) main_v2 main_c
  let main_v4 : FVec F S19500x128 .f32 := Host.absf main_arg2
  let main_cst_0 : FVec F S_ .f32 := constant S_ .f32 0x7F800000#32
  let main_v5 : FVec F S19500x128 .f32 := broadcastInDim S19500x128 ![] bcast_S_S19500x128 main_cst_0
  let main_v6 : IVec S19500x128 1 := cmpf .olt main_v4 main_v5
  let main_c_1 : IVec S_ 1 := constantI S_ 1 1#1
  let main_v7 : IVec S_ 1 := (fun x v => Host.reduce IntOp.andi x v reducesTo_S19500x128_S_d0_1 h_S_) main_v6 main_c_1
  let main_v8 : IVec S_ 1 := andi main_v3 main_v7
  let main_v9 : FVec F S9984x128 .f32 := Host.absf main_arg4
  let main_cst_2 : FVec F S_ .f32 := constant S_ .f32 0x7F800000#32
  let main_v10 : FVec F S9984x128 .f32 := broadcastInDim S9984x128 ![] bcast_S_S9984x128 main_cst_2
  let main_v11 : IVec S9984x128 1 := cmpf .olt main_v9 main_v10
  let main_c_3 : IVec S_ 1 := constantI S_ 1 1#1
  let main_v12 : IVec S_ 1 := (fun x v => Host.reduce IntOp.andi x v reducesTo_S9984x128_S_d0_1 h_S_) main_v11 main_c_3
  let main_v13 : IVec S_ 1 := andi main_v8 main_v12
  let main_v14 : FVec F S9984x128 .f32 := Host.absf main_arg6
  let main_cst_4 : FVec F S_ .f32 := constant S_ .f32 0x7F800000#32
  let main_v15 : FVec F S9984x128 .f32 := broadcastInDim S9984x128 ![] bcast_S_S9984x128 main_cst_4
  let main_v16 : IVec S9984x128 1 := cmpf .olt main_v14 main_v15
  fn_part1 (F := F) main_arg8 main_arg10 main_arg12 main_arg14 main_v13 main_v16
-- ==== Kernel.lean ====
abbrev S4096x39 : Shape := ⟨2, ![4096, 39]⟩
abbrev S39x9 : Shape := ⟨2, ![39, 9]⟩
abbrev S19500x128 : Shape := ⟨2, ![19500, 128]⟩
abbrev S390000x1 : Shape := ⟨2, ![390000, 1]⟩
abbrev S9984x128 : Shape := ⟨2, ![9984, 128]⟩
abbrev S390000x2 : Shape := ⟨2, ![390000, 2]⟩
abbrev S390000x4 : Shape := ⟨2, ![390000, 4]⟩
abbrev S19968x128 : Shape := ⟨2, ![19968, 128]⟩
abbrev S39 : Shape := ⟨1, ![39]⟩
abbrev S_ : Shape := ⟨0, ![]⟩
abbrev S1x39 : Shape := ⟨2, ![1, 39]⟩
abbrev S4096x39x1 : Shape := ⟨3, ![4096, 39, 1]⟩
abbrev S19500x1x128 : Shape := ⟨3, ![19500, 1, 128]⟩
abbrev S1 : Shape := ⟨1, ![1]⟩
abbrev S1x1x1 : Shape := ⟨3, ![1, 1, 1]⟩
abbrev S4096x39x1x1 : Shape := ⟨4, ![4096, 39, 1, 1]⟩
abbrev S4096x39x1x2 : Shape := ⟨4, ![4096, 39, 1, 2]⟩
abbrev S4096x39x1x128 : Shape := ⟨4, ![4096, 39, 1, 128]⟩
abbrev S159744x128 : Shape := ⟨2, ![159744, 128]⟩
abbrev S39x1 : Shape := ⟨2, ![39, 1]⟩
abbrev S159744 : Shape := ⟨1, ![159744]⟩
abbrev S9984x1x128 : Shape := ⟨3, ![9984, 1, 128]⟩
abbrev S4096x39x2 : Shape := ⟨3, ![4096, 39, 2]⟩
abbrev S9984x2x64 : Shape := ⟨3, ![9984, 2, 64]⟩
abbrev S2 : Shape := ⟨1, ![2]⟩
abbrev S1x1x2 : Shape := ⟨3, ![1, 1, 2]⟩
abbrev S4096x39x2x1 : Shape := ⟨4, ![4096, 39, 2, 1]⟩
abbrev S4096x39x2x2 : Shape := ⟨4, ![4096, 39, 2, 2]⟩
abbrev S4096x39x2x64 : Shape := ⟨4, ![4096, 39, 2, 64]⟩
abbrev S4096x39x4 : Shape := ⟨3, ![4096, 39, 4]⟩
abbrev S9984x4x32 : Shape := ⟨3, ![9984, 4, 32]⟩
abbrev S4 : Shape := ⟨1, ![4]⟩
abbrev S1x1x4 : Shape := ⟨3, ![1, 1, 4]⟩
abbrev S4096x39x4x1 : Shape := ⟨4, ![4096, 39, 4, 1]⟩
abbrev S4096x39x4x2 : Shape := ⟨4, ![4096, 39, 4, 2]⟩
abbrev S4096x39x4x32 : Shape := ⟨4, ![4096, 39, 4, 32]⟩
abbrev S19968x1x128 : Shape := ⟨3, ![19968, 1, 128]⟩
abbrev S19968x2x64 : Shape := ⟨3, ![19968, 2, 64]⟩
abbrev S19968x4x32 : Shape := ⟨3, ![19968, 4, 32]⟩
abbrev S2048x128 : Shape := ⟨2, ![2048, 128]⟩
abbrev S2048 : Shape := ⟨1, ![2048]⟩
abbrev S2048x1 : Shape := ⟨2, ![2048, 1]⟩
abbrev S4096x39x128 : Shape := ⟨3, ![4096, 39, 128]⟩

abbrev nBuf : Space → Nat
  | .hbm => 284
  | .vmem => 30
  | .smem => 0
  | _ => 0

abbrev hbmTy0_0 (i : Nat) : BufTy := match i % 128 with
  | 0 => ⟨S4096x39, .i32⟩
  | 1 => ⟨S39x9, .f32⟩
  | 2 => ⟨S19500x128, .f32⟩
  | 3 => ⟨S390000x1, .i32⟩
  | 4 => ⟨S9984x128, .f32⟩
  | 5 => ⟨S390000x1, .i32⟩
  | 6 => ⟨S9984x128, .f32⟩
  | 7 => ⟨S390000x2, .i32⟩
  | 8 => ⟨S9984x128, .f32⟩
  | 9 => ⟨S390000x4, .i32⟩
  | 10 => ⟨S19968x128, .f32⟩
  | 11 => ⟨S390000x1, .i32⟩
  | 12 => ⟨S19968x128, .f32⟩
  | 13 => ⟨S390000x2, .i32⟩
  | 14 => ⟨S19968x128, .f32⟩
  | 15 => ⟨S390000x4, .i32⟩
  | 16 => ⟨S39, .i32⟩
  | 17 => ⟨S_, .i32⟩
  | 18 => ⟨S39, .i32⟩
  | 19 => ⟨S39, .i32⟩
  | 20 => ⟨S1x39, .i32⟩
  | 21 => ⟨S4096x39, .i32⟩
  | 22 => ⟨S4096x39, .i32⟩
  | 23 => ⟨S_, .i32⟩
  | 24 => ⟨S4096x39, .i32⟩
  | 25 => ⟨S4096x39, .i1⟩
  | 26 => ⟨S_, .i32⟩
  | 27 => ⟨S4096x39, .i32⟩
  | 28 => ⟨S4096x39, .i32⟩
  | 29 => ⟨S4096x39, .i32⟩
  | 30 => ⟨S4096x39x1, .i32⟩
  | 31 => ⟨S4096x39x1, .i32⟩
  | 32 => ⟨S19500x1x128, .f32⟩
  | 33 => ⟨S1, .i32⟩
  | 34 => ⟨S1x1x1, .i32⟩
  | 35 => ⟨S_, .i32⟩
  | 36 => ⟨S4096x39x1, .i32⟩
  | 37 => ⟨S4096x39x1, .i1⟩
  | 38 => ⟨S_, .i32⟩
  | 39 => ⟨S4096x39x1, .i32⟩
  | 40 => ⟨S4096x39x1, .i32⟩
  | 41 => ⟨S4096x39x1, .i32⟩
  | 42 => ⟨S_, .i32⟩
  | 43 => ⟨S1x1x1, .i32⟩
  | 44 => ⟨S1x1x1, .i1⟩
  | 45 => ⟨S_, .i32⟩
  | 46 => ⟨S1x1x1, .i32⟩
  | 47 => ⟨S1x1x1, .i32⟩
  | 48 => ⟨S1x1x1, .i32⟩
  | 49 => ⟨S4096x39x1, .i32⟩
  | 50 => ⟨S4096x39x1x1, .i32⟩
  | 51 => ⟨S4096x39x1x1, .i32⟩
  | 52 => ⟨S4096x39x1x2, .i32⟩
  | 53 => ⟨S4096x39x1x128, .f32⟩
  | 54 => ⟨S159744x128, .f32⟩
  | 55 => ⟨S39x1, .f32⟩
  | 56 => ⟨S39, .f32⟩
  | 57 => ⟨S1x39, .f32⟩
  | 58 => ⟨S4096x39, .f32⟩
  | 59 => ⟨S159744, .f32⟩
  | 60 => ⟨S_, .i32⟩
  | 61 => ⟨S4096x39, .i32⟩
  | 62 => ⟨S4096x39, .i1⟩
  | 63 => ⟨S_, .i32⟩
  | 64 => ⟨S4096x39, .i32⟩
  | 65 => ⟨S4096x39, .i32⟩
  | 66 => ⟨S4096x39, .i32⟩
  | 67 => ⟨S4096x39x1, .i32⟩
  | 68 => ⟨S4096x39x1, .i32⟩
  | 69 => ⟨S9984x1x128, .f32⟩
  | 70 => ⟨S1, .i32⟩
  | 71 => ⟨S1x1x1, .i32⟩
  | 72 => ⟨S_, .i32⟩
  | 73 => ⟨S4096x39x1, .i32⟩
  | 74 => ⟨S4096x39x1, .i1⟩
  | 75 => ⟨S_, .i32⟩
  | 76 => ⟨S4096x39x1, .i32⟩
  | 77 => ⟨S4096x39x1, .i32⟩
  | 78 => ⟨S4096x39x1, .i32⟩
  | 79 => ⟨S_, .i32⟩
  | 80 => ⟨S1x1x1, .i32⟩
  | 81 => ⟨S1x1x1, .i1⟩
  | 82 => ⟨S_, .i32⟩
  | 83 => ⟨S1x1x1, .i32⟩
  | 84 => ⟨S1x1x1, .i32⟩
  | 85 => ⟨S1x1x1, .i32⟩
  | 86 => ⟨S4096x39x1, .i32⟩
  | 87 => ⟨S4096x39x1x1, .i32⟩
  | 88 => ⟨S4096x39x1x1, .i32⟩
  | 89 => ⟨S4096x39x1x2, .i32⟩
  | 90 => ⟨S4096x39x1x128, .f32⟩
  | 91 => ⟨S159744x128, .f32⟩
  | 92 => ⟨S39x1, .f32⟩
  | 93 => ⟨S39, .f32⟩
  | 94 => ⟨S1x39, .f32⟩
  | 95 => ⟨S4096x39, .f32⟩
  | 96 => ⟨S159744, .f32⟩
  | 97 => ⟨S_, .i32⟩
  | 98 => ⟨S4096x39, .i32⟩
  | 99 => ⟨S4096x39, .i1⟩
  | 100 => ⟨S_, .i32⟩
  | 101 => ⟨S4096x39, .i32⟩
  | 102 => ⟨S4096x39, .i32⟩
  | 103 => ⟨S4096x39, .i32⟩
  | 104 => ⟨S4096x39x1, .i32⟩
  | 105 => ⟨S4096x39x2, .i32⟩
  | 106 => ⟨S9984x2x64, .f32⟩
  | 107 => ⟨S2, .i32⟩
  | 108 => ⟨S1x1x2, .i32⟩
  | 109 => ⟨S_, .i32⟩
  | 110 => ⟨S4096x39x2, .i32⟩
  | 111 => ⟨S4096x39x2, .i1⟩
  | 112 => ⟨S_, .i32⟩
  | 113 => ⟨S4096x39x2, .i32⟩
  | 114 => ⟨S4096x39x2, .i32⟩
  | 115 => ⟨S4096x39x2, .i32⟩
  | 116 => ⟨S_, .i32⟩
  | 117 => ⟨S1x1x2, .i32⟩
  | 118 => ⟨S1x1x2, .i1⟩
  | 119 => ⟨S_, .i32⟩
  | 120 => ⟨S1x1x2, .i32⟩
  | 121 => ⟨S1x1x2, .i32⟩
  | 122 => ⟨S1x1x2, .i32⟩
  | 123 => ⟨S4096x39x2, .i32⟩
  | 124 => ⟨S4096x39x2x1, .i32⟩
  | 125 => ⟨S4096x39x2x1, .i32⟩
  | 126 => ⟨S4096x39x2x2, .i32⟩
  | 127 => ⟨S4096x39x2x64, .f32⟩
  | _ => ⟨S4096x39, .i32⟩

abbrev hbmTy0_1 (i : Nat) : BufTy := match i % 128 with
  | 0 => ⟨S159744x128, .f32⟩
  | 1 => ⟨S39x1, .f32⟩
  | 2 => ⟨S39, .f32⟩
  | 3 => ⟨S1x39, .f32⟩
  | 4 => ⟨S4096x39, .f32⟩
  | 5 => ⟨S159744, .f32⟩
  | 6 => ⟨S_, .i32⟩
  | 7 => ⟨S4096x39, .i32⟩
  | 8 => ⟨S4096x39, .i1⟩
  | 9 => ⟨S_, .i32⟩
  | 10 => ⟨S4096x39, .i32⟩
  | 11 => ⟨S4096x39, .i32⟩
  | 12 => ⟨S4096x39, .i32⟩
  | 13 => ⟨S4096x39x1, .i32⟩
  | 14 => ⟨S4096x39x4, .i32⟩
  | 15 => ⟨S9984x4x32, .f32⟩
  | 16 => ⟨S4, .i32⟩
  | 17 => ⟨S1x1x4, .i32⟩
  | 18 => ⟨S_, .i32⟩
  | 19 => ⟨S4096x39x4, .i32⟩
  | 20 => ⟨S4096x39x4, .i1⟩
  | 21 => ⟨S_, .i32⟩
  | 22 => ⟨S4096x39x4, .i32⟩
  | 23 => ⟨S4096x39x4, .i32⟩
  | 24 => ⟨S4096x39x4, .i32⟩
  | 25 => ⟨S_, .i32⟩
  | 26 => ⟨S1x1x4, .i32⟩
  | 27 => ⟨S1x1x4, .i1⟩
  | 28 => ⟨S_, .i32⟩
  | 29 => ⟨S1x1x4, .i32⟩
  | 30 => ⟨S1x1x4, .i32⟩
  | 31 => ⟨S1x1x4, .i32⟩
  | 32 => ⟨S4096x39x4, .i32⟩
  | 33 => ⟨S4096x39x4x1, .i32⟩
  | 34 => ⟨S4096x39x4x1, .i32⟩
  | 35 => ⟨S4096x39x4x2, .i32⟩
  | 36 => ⟨S4096x39x4x32, .f32⟩
  | 37 => ⟨S159744x128, .f32⟩
  | 38 => ⟨S39x1, .f32⟩
  | 39 => ⟨S39, .f32⟩
  | 40 => ⟨S1x39, .f32⟩
  | 41 => ⟨S4096x39, .f32⟩
  | 42 => ⟨S159744, .f32⟩
  | 43 => ⟨S_, .i32⟩
  | 44 => ⟨S4096x39, .i32⟩
  | 45 => ⟨S4096x39, .i1⟩
  | 46 => ⟨S_, .i32⟩
  | 47 => ⟨S4096x39, .i32⟩
  | 48 => ⟨S4096x39, .i32⟩
  | 49 => ⟨S4096x39, .i32⟩
  | 50 => ⟨S4096x39x1, .i32⟩
  | 51 => ⟨S4096x39x1, .i32⟩
  | 52 => ⟨S19968x1x128, .f32⟩
  | 53 => ⟨S1, .i32⟩
  | 54 => ⟨S1x1x1, .i32⟩
  | 55 => ⟨S_, .i32⟩
  | 56 => ⟨S4096x39x1, .i32⟩
  | 57 => ⟨S4096x39x1, .i1⟩
  | 58 => ⟨S_, .i32⟩
  | 59 => ⟨S4096x39x1, .i32⟩
  | 60 => ⟨S4096x39x1, .i32⟩
  | 61 => ⟨S4096x39x1, .i32⟩
  | 62 => ⟨S_, .i32⟩
  | 63 => ⟨S1x1x1, .i32⟩
  | 64 => ⟨S1x1x1, .i1⟩
  | 65 => ⟨S_, .i32⟩
  | 66 => ⟨S1x1x1, .i32⟩
  | 67 => ⟨S1x1x1, .i32⟩
  | 68 => ⟨S1x1x1, .i32⟩
  | 69 => ⟨S4096x39x1, .i32⟩
  | 70 => ⟨S4096x39x1x1, .i32⟩
  | 71 => ⟨S4096x39x1x1, .i32⟩
  | 72 => ⟨S4096x39x1x2, .i32⟩
  | 73 => ⟨S4096x39x1x128, .f32⟩
  | 74 => ⟨S159744x128, .f32⟩
  | 75 => ⟨S39x1, .f32⟩
  | 76 => ⟨S39, .f32⟩
  | 77 => ⟨S1x39, .f32⟩
  | 78 => ⟨S4096x39, .f32⟩
  | 79 => ⟨S159744, .f32⟩
  | 80 => ⟨S_, .i32⟩
  | 81 => ⟨S4096x39, .i32⟩
  | 82 => ⟨S4096x39, .i1⟩
  | 83 => ⟨S_, .i32⟩
  | 84 => ⟨S4096x39, .i32⟩
  | 85 => ⟨S4096x39, .i32⟩
  | 86 => ⟨S4096x39, .i32⟩
  | 87 => ⟨S4096x39x1, .i32⟩
  | 88 => ⟨S4096x39x2, .i32⟩
  | 89 => ⟨S19968x2x64, .f32⟩
  | 90 => ⟨S2, .i32⟩
  | 91 => ⟨S1x1x2, .i32⟩
  | 92 => ⟨S_, .i32⟩
  | 93 => ⟨S4096x39x2, .i32⟩
  | 94 => ⟨S4096x39x2, .i1⟩
  | 95 => ⟨S_, .i32⟩
  | 96 => ⟨S4096x39x2, .i32⟩
  | 97 => ⟨S4096x39x2, .i32⟩
  | 98 => ⟨S4096x39x2, .i32⟩
  | 99 => ⟨S_, .i32⟩
  | 100 => ⟨S1x1x2, .i32⟩
  | 101 => ⟨S1x1x2, .i1⟩
  | 102 => ⟨S_, .i32⟩
  | 103 => ⟨S1x1x2, .i32⟩
  | 104 => ⟨S1x1x2, .i32⟩
  | 105 => ⟨S1x1x2, .i32⟩
  | 106 => ⟨S4096x39x2, .i32⟩
  | 107 => ⟨S4096x39x2x1, .i32⟩
  | 108 => ⟨S4096x39x2x1, .i32⟩
  | 109 => ⟨S4096x39x2x2, .i32⟩
  | 110 => ⟨S4096x39x2x64, .f32⟩
  | 111 => ⟨S159744x128, .f32⟩
  | 112 => ⟨S39x1, .f32⟩
  | 113 => ⟨S39, .f32⟩
  | 114 => ⟨S1x39, .f32⟩
  | 115 => ⟨S4096x39, .f32⟩
  | 116 => ⟨S159744, .f32⟩
  | 117 => ⟨S_, .i32⟩
  | 118 => ⟨S4096x39, .i32⟩
  | 119 => ⟨S4096x39, .i1⟩
  | 120 => ⟨S_, .i32⟩
  | 121 => ⟨S4096x39, .i32⟩
  | 122 => ⟨S4096x39, .i32⟩
  | 123 => ⟨S4096x39, .i32⟩
  | 124 => ⟨S4096x39x1, .i32⟩
  | 125 => ⟨S4096x39x4, .i32⟩
  | 126 => ⟨S19968x4x32, .f32⟩
  | 127 => ⟨S4, .i32⟩
  | _ => ⟨S4096x39, .i32⟩

abbrev hbmTy0_2 (i : Nat) : BufTy := match i % 128 with
  | 0 => ⟨S1x1x4, .i32⟩
  | 1 => ⟨S_, .i32⟩
  | 2 => ⟨S4096x39x4, .i32⟩
  | 3 => ⟨S4096x39x4, .i1⟩
  | 4 => ⟨S_, .i32⟩
  | 5 => ⟨S4096x39x4, .i32⟩
  | 6 => ⟨S4096x39x4, .i32⟩
  | 7 => ⟨S4096x39x4, .i32⟩
  | 8 => ⟨S_, .i32⟩
  | 9 => ⟨S1x1x4, .i32⟩
  | 10 => ⟨S1x1x4, .i1⟩
  | 11 => ⟨S_, .i32⟩
  | 12 => ⟨S1x1x4, .i32⟩
  | 13 => ⟨S1x1x4, .i32⟩
  | 14 => ⟨S1x1x4, .i32⟩
  | 15 => ⟨S4096x39x4, .i32⟩
  | 16 => ⟨S4096x39x4x1, .i32⟩
  | 17 => ⟨S4096x39x4x1, .i32⟩
  | 18 => ⟨S4096x39x4x2, .i32⟩
  | 19 => ⟨S4096x39x4x32, .f32⟩
  | 20 => ⟨S159744x128, .f32⟩
  | 21 => ⟨S39x1, .f32⟩
  | 22 => ⟨S39, .f32⟩
  | 23 => ⟨S1x39, .f32⟩
  | 24 => ⟨S4096x39, .f32⟩
  | 25 => ⟨S159744, .f32⟩
  | 26 => ⟨S159744x128, .f32⟩
  | 27 => ⟨S4096x39x128, .f32⟩
  | _ => ⟨S4096x39, .i32⟩

abbrev hbmTy (i : Nat) : BufTy := match i / 128 with
  | 0 => hbmTy0_0 i
  | 1 => hbmTy0_1 i
  | 2 => hbmTy0_2 i
  | _ => ⟨S4096x39, .i32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048, .f32⟩
  | .local _ .vmem, ⟨15, _⟩ => ⟨S2048, .f32⟩
  | .local _ .vmem, ⟨16, _⟩ => ⟨S2048, .f32⟩
  | .local _ .vmem, ⟨17, _⟩ => ⟨S2048, .f32⟩
  | .local _ .vmem, ⟨18, _⟩ => ⟨S2048, .f32⟩
  | .local _ .vmem, ⟨19, _⟩ => ⟨S2048, .f32⟩
  | .local _ .vmem, ⟨20, _⟩ => ⟨S2048, .f32⟩
  | .local _ .vmem, ⟨21, _⟩ => ⟨S2048, .f32⟩
  | .local _ .vmem, ⟨22, _⟩ => ⟨S2048, .f32⟩
  | .local _ .vmem, ⟨23, _⟩ => ⟨S2048, .f32⟩
  | .local _ .vmem, ⟨24, _⟩ => ⟨S2048, .f32⟩
  | .local _ .vmem, ⟨25, _⟩ => ⟨S2048, .f32⟩
  | .local _ .vmem, ⟨26, _⟩ => ⟨S2048, .f32⟩
  | .local _ .vmem, ⟨27, _⟩ => ⟨S2048, .f32⟩
  | .local _ .vmem, ⟨28, _⟩ => ⟨S2048x128, .f32⟩
  | .local _ .vmem, ⟨29, _⟩ => ⟨S2048x128, .f32⟩
  | _, _ => ⟨S4096x39, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_c_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_c_13 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_14 : Ref sig .tc := ⟨.hbm, 109, rfl⟩
abbrev main_v78 : Ref sig .tc := ⟨.hbm, 110, rfl⟩
abbrev main_v79 : Ref sig .tc := ⟨.hbm, 111, rfl⟩
abbrev main_c_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_16 : Ref sig .tc := ⟨.hbm, 116, rfl⟩
abbrev main_v83 : Ref sig .tc := ⟨.hbm, 117, rfl⟩
abbrev main_v84 : Ref sig .tc := ⟨.hbm, 118, rfl⟩
abbrev main_c_17 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_18 : Ref sig .tc := ⟨.hbm, 134, rfl⟩
abbrev main_v99 : Ref sig .tc := ⟨.hbm, 135, rfl⟩
abbrev main_v100 : Ref sig .tc := ⟨.hbm, 136, rfl⟩
abbrev main_c_19 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_20 : Ref sig .tc := ⟨.hbm, 146, rfl⟩
abbrev main_v109 : Ref sig .tc := ⟨.hbm, 147, rfl⟩
abbrev main_v110 : Ref sig .tc := ⟨.hbm, 148, rfl⟩
abbrev main_c_21 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_c_22 : Ref sig .tc := ⟨.hbm, 153, rfl⟩
abbrev main_v114 : Ref sig .tc := ⟨.hbm, 154, rfl⟩
abbrev main_v115 : Ref sig .tc := ⟨.hbm, 155, rfl⟩
abbrev main_c_23 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_c_24 : Ref sig .tc := ⟨.hbm, 171, rfl⟩
abbrev main_v130 : Ref sig .tc := ⟨.hbm, 172, rfl⟩
abbrev main_v131 : Ref sig .tc := ⟨.hbm, 173, rfl⟩
abbrev main_c_25 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_26 : Ref sig .tc := ⟨.hbm, 183, rfl⟩
abbrev main_v140 : Ref sig .tc := ⟨.hbm, 184, rfl⟩
abbrev main_v141 : Ref sig .tc := ⟨.hbm, 185, rfl⟩
abbrev main_c_27 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_c_28 : Ref sig .tc := ⟨.hbm, 190, rfl⟩
abbrev main_v145 : Ref sig .tc := ⟨.hbm, 191, rfl⟩
abbrev main_v146 : Ref sig .tc := ⟨.hbm, 192, rfl⟩
abbrev main_c_29 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_c_30 : Ref sig .tc := ⟨.hbm, 208, rfl⟩
abbrev main_v161 : Ref sig .tc := ⟨.hbm, 209, rfl⟩
abbrev main_v162 : Ref sig .tc := ⟨.hbm, 210, rfl⟩
abbrev main_c_31 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_c_32 : Ref sig .tc := ⟨.hbm, 220, rfl⟩
abbrev main_v171 : Ref sig .tc := ⟨.hbm, 221, rfl⟩
abbrev main_v172 : Ref sig .tc := ⟨.hbm, 222, rfl⟩
abbrev main_c_33 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_c_34 : Ref sig .tc := ⟨.hbm, 227, rfl⟩
abbrev main_v176 : Ref sig .tc := ⟨.hbm, 228, rfl⟩
abbrev main_v177 : Ref sig .tc := ⟨.hbm, 229, rfl⟩
abbrev main_c_35 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_c_36 : Ref sig .tc := ⟨.hbm, 245, rfl⟩
abbrev main_v192 : Ref sig .tc := ⟨.hbm, 246, rfl⟩
abbrev main_v193 : Ref sig .tc := ⟨.hbm, 247, rfl⟩
abbrev main_c_37 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_c_38 : Ref sig .tc := ⟨.hbm, 257, rfl⟩
abbrev main_v202 : Ref sig .tc := ⟨.hbm, 258, rfl⟩
abbrev main_v203 : Ref sig .tc := ⟨.hbm, 259, rfl⟩
abbrev main_c_39 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_c_40 : Ref sig .tc := ⟨.hbm, 264, rfl⟩
abbrev main_v207 : Ref sig .tc := ⟨.hbm, 265, rfl⟩
abbrev main_v208 : Ref sig .tc := ⟨.hbm, 266, rfl⟩
abbrev main_c_41 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![78], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 1 → Nat :=
  let arg0 : BitVec 32 := BitVec.ofNat 32 (i 0).val
  let c0_i32 : BitVec 32 := 0#32
  ![arg0.toNat]

def cc0_transform_10 (i : grid0.Coords) : Fin 1 → Nat :=
  let arg0 : BitVec 32 := BitVec.ofNat 32 (i 0).val
  let c0_i32 : BitVec 32 := 0#32
  ![arg0.toNat]

def cc0_transform_11 (i : grid0.Coords) : Fin 1 → Nat :=
  let arg0 : BitVec 32 := BitVec.ofNat 32 (i 0).val
  let c0_i32 : BitVec 32 := 0#32
  ![arg0.toNat]

def cc0_transform_12 (i : grid0.Coords) : Fin 1 → Nat :=
  let arg0 : BitVec 32 := BitVec.ofNat 32 (i 0).val
  let c0_i32 : BitVec 32 := 0#32
  ![arg0.toNat]

def cc0_transform_13 (i : grid0.Coords) : Fin 1 → Nat :=
  let arg0 : BitVec 32 := BitVec.ofNat 32 (i 0).val
  let c0_i32 : BitVec 32 := 0#32
  ![arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S39 : S_.BroadcastsInDim S39 (![] : Fin 0 → Fin S39.rank)
  bcast_S39_S1x39_1 : S39.BroadcastsInDim S1x39 (![1] : Fin 1 → Fin S1x39.rank)
  bcast_S1x39_S4096x39_0_1 : S1x39.BroadcastsInDim S4096x39 (![0, 1] : Fin 2 → Fin S4096x39.rank)
  bcast_S_S4096x39 : S_.BroadcastsInDim S4096x39 (![] : Fin 0 → Fin S4096x39.rank)
  bcast_S4096x39_S4096x39x1_0_1 : S4096x39.BroadcastsInDim S4096x39x1 (![0, 1] : Fin 2 → Fin S4096x39x1.rank)
  shapeCasts_S19500x128_S19500x1x128 : S19500x128.ShapeCasts S19500x1x128
  bcast_S1_S1x1x1_2 : S1.BroadcastsInDim S1x1x1 (![2] : Fin 1 → Fin S1x1x1.rank)
  bcast_S_S4096x39x1 : S_.BroadcastsInDim S4096x39x1 (![] : Fin 0 → Fin S4096x39x1.rank)
  bcast_S_S1x1x1 : S_.BroadcastsInDim S1x1x1 (![] : Fin 0 → Fin S1x1x1.rank)
  bcast_S1x1x1_S4096x39x1_0_1_2 : S1x1x1.BroadcastsInDim S4096x39x1 (![0, 1, 2] : Fin 3 → Fin S4096x39x1.rank)
  bcast_S4096x39x1_S4096x39x1x1_0_1_2 : S4096x39x1.BroadcastsInDim S4096x39x1x1 (![0, 1, 2] : Fin 3 → Fin S4096x39x1x1.rank)
  concatenates_S4096x39x1x1_S4096x39x1x1_S4096x39x1x2_d3 : Shape.Concatenates [S4096x39x1x1, S4096x39x1x1] S4096x39x1x2 3
  shapeCasts_S4096x39x1x128_S159744x128 : S4096x39x1x128.ShapeCasts S159744x128
  slices_S39x9_S39x1_0_0 : S39x9.Slices ![0, 0] S39x1
  shapeCasts_S39x1_S39 : S39x1.ShapeCasts S39
  shapeCasts_S4096x39_S159744 : S4096x39.ShapeCasts S159744
  shapeCasts_S9984x128_S9984x1x128 : S9984x128.ShapeCasts S9984x1x128
  slices_S39x9_S39x1_0_3 : S39x9.Slices ![0, 3] S39x1
  shapeCasts_S9984x128_S9984x2x64 : S9984x128.ShapeCasts S9984x2x64
  bcast_S2_S1x1x2_2 : S2.BroadcastsInDim S1x1x2 (![2] : Fin 1 → Fin S1x1x2.rank)
  bcast_S_S4096x39x2 : S_.BroadcastsInDim S4096x39x2 (![] : Fin 0 → Fin S4096x39x2.rank)
  bcast_S_S1x1x2 : S_.BroadcastsInDim S1x1x2 (![] : Fin 0 → Fin S1x1x2.rank)
  bcast_S1x1x2_S4096x39x2_0_1_2 : S1x1x2.BroadcastsInDim S4096x39x2 (![0, 1, 2] : Fin 3 → Fin S4096x39x2.rank)
  bcast_S4096x39x2_S4096x39x2x1_0_1_2 : S4096x39x2.BroadcastsInDim S4096x39x2x1 (![0, 1, 2] : Fin 3 → Fin S4096x39x2x1.rank)
  concatenates_S4096x39x2x1_S4096x39x2x1_S4096x39x2x2_d3 : Shape.Concatenates [S4096x39x2x1, S4096x39x2x1] S4096x39x2x2 3
  shapeCasts_S4096x39x2x64_S159744x128 : S4096x39x2x64.ShapeCasts S159744x128
  slices_S39x9_S39x1_0_4 : S39x9.Slices ![0, 4] S39x1
  shapeCasts_S9984x128_S9984x4x32 : S9984x128.ShapeCasts S9984x4x32
  bcast_S4_S1x1x4_2 : S4.BroadcastsInDim S1x1x4 (![2] : Fin 1 → Fin S1x1x4.rank)
  bcast_S_S4096x39x4 : S_.BroadcastsInDim S4096x39x4 (![] : Fin 0 → Fin S4096x39x4.rank)
  bcast_S_S1x1x4 : S_.BroadcastsInDim S1x1x4 (![] : Fin 0 → Fin S1x1x4.rank)
  bcast_S1x1x4_S4096x39x4_0_1_2 : S1x1x4.BroadcastsInDim S4096x39x4 (![0, 1, 2] : Fin 3 → Fin S4096x39x4.rank)
  bcast_S4096x39x4_S4096x39x4x1_0_1_2 : S4096x39x4.BroadcastsInDim S4096x39x4x1 (![0, 1, 2] : Fin 3 → Fin S4096x39x4x1.rank)
  concatenates_S4096x39x4x1_S4096x39x4x1_S4096x39x4x2_d3 : Shape.Concatenates [S4096x39x4x1, S4096x39x4x1] S4096x39x4x2 3
  shapeCasts_S4096x39x4x32_S159744x128 : S4096x39x4x32.ShapeCasts S159744x128
  slices_S39x9_S39x1_0_5 : S39x9.Slices ![0, 5] S39x1
  shapeCasts_S19968x128_S19968x1x128 : S19968x128.ShapeCasts S19968x1x128
  slices_S39x9_S39x1_0_6 : S39x9.Slices ![0, 6] S39x1
  shapeCasts_S19968x128_S19968x2x64 : S19968x128.ShapeCasts S19968x2x64
  slices_S39x9_S39x1_0_7 : S39x9.Slices ![0, 7] S39x1
  shapeCasts_S19968x128_S19968x4x32 : S19968x128.ShapeCasts S19968x4x32
  slices_S39x9_S39x1_0_8 : S39x9.Slices ![0, 8] S39x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  broadcasts_S2048x1_S2048x128 : S2048x1.Broadcasts S2048x128
  shapeCasts_S159744x128_S4096x39x128 : S159744x128.ShapeCasts S4096x39x128
  gather_S390000x1_S4096x39x1_S4096x39x1_2_0_n_n_0_2_11_wf : GatherDims.WF S390000x1 S4096x39x1 S4096x39x1 [2] [0] [] [0] [] 2 ![1, 1]
  gather_S19500x1x128_S4096x39x1x2_S4096x39x1x128_3_01_n_n_01_3_11128_wf : GatherDims.WF S19500x1x128 S4096x39x1x2 S4096x39x1x128 [3] [0, 1] [] [0, 1] [] 3 ![1, 1, 128]
  gather_S9984x1x128_S4096x39x1x2_S4096x39x1x128_3_01_n_n_01_3_11128_wf : GatherDims.WF S9984x1x128 S4096x39x1x2 S4096x39x1x128 [3] [0, 1] [] [0, 1] [] 3 ![1, 1, 128]
  gather_S390000x2_S4096x39x1_S4096x39x2_2_0_n_n_0_2_12_wf : GatherDims.WF S390000x2 S4096x39x1 S4096x39x2 [2] [0] [] [0] [] 2 ![1, 2]
  gather_S9984x2x64_S4096x39x2x2_S4096x39x2x64_3_01_n_n_01_3_1164_wf : GatherDims.WF S9984x2x64 S4096x39x2x2 S4096x39x2x64 [3] [0, 1] [] [0, 1] [] 3 ![1, 1, 64]
  gather_S390000x4_S4096x39x1_S4096x39x4_2_0_n_n_0_2_14_wf : GatherDims.WF S390000x4 S4096x39x1 S4096x39x4 [2] [0] [] [0] [] 2 ![1, 4]
  gather_S9984x4x32_S4096x39x4x2_S4096x39x4x32_3_01_n_n_01_3_1132_wf : GatherDims.WF S9984x4x32 S4096x39x4x2 S4096x39x4x32 [3] [0, 1] [] [0, 1] [] 3 ![1, 1, 32]
  gather_S19968x1x128_S4096x39x1x2_S4096x39x1x128_3_01_n_n_01_3_11128_wf : GatherDims.WF S19968x1x128 S4096x39x1x2 S4096x39x1x128 [3] [0, 1] [] [0, 1] [] 3 ![1, 1, 128]
  gather_S19968x2x64_S4096x39x2x2_S4096x39x2x64_3_01_n_n_01_3_1164_wf : GatherDims.WF S19968x2x64 S4096x39x2x2 S4096x39x2x64 [3] [0, 1] [] [0, 1] [] 3 ![1, 1, 64]
  gather_S19968x4x32_S4096x39x4x2_S4096x39x4x32_3_01_n_n_01_3_1132_wf : GatherDims.WF S19968x4x32 S4096x39x4x2 S4096x39x4x32 [3] [0, 1] [] [0, 1] [] 3 ![1, 1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S159744x128.size a
  hwx0_0 : ∀ i : grid0.Coords, EltTy.bits .f32 = 32 ∨ (Rect.block (s := S159744x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S159744x128.size a
  hwx0_1 : ∀ i : grid0.Coords, EltTy.bits .f32 = 32 ∨ (Rect.block (s := S159744x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S159744x128.size a
  hwx0_2 : ∀ i : grid0.Coords, EltTy.bits .f32 = 32 ∨ (Rect.block (s := S159744x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S159744x128.size a
  hwx0_3 : ∀ i : grid0.Coords, EltTy.bits .f32 = 32 ∨ (Rect.block (s := S159744x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S159744x128.size a
  hwx0_4 : ∀ i : grid0.Coords, EltTy.bits .f32 = 32 ∨ (Rect.block (s := S159744x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S159744x128.size a
  hwx0_5 : ∀ i : grid0.Coords, EltTy.bits .f32 = 32 ∨ (Rect.block (s := S159744x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S159744x128.size a
  hwx0_6 : ∀ i : grid0.Coords, EltTy.bits .f32 = 32 ∨ (Rect.block (s := S159744x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S159744.size a
  hwx0_7 : ∀ i : grid0.Coords, EltTy.bits .f32 = 32 ∨ (Rect.block (s := S159744) S2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S159744.size a
  hwx0_8 : ∀ i : grid0.Coords, EltTy.bits .f32 = 32 ∨ (Rect.block (s := S159744) S2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S159744.size a
  hwx0_9 : ∀ i : grid0.Coords, EltTy.bits .f32 = 32 ∨ (Rect.block (s := S159744) S2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048.size a ≤ S159744.size a
  hwx0_10 : ∀ i : grid0.Coords, EltTy.bits .f32 = 32 ∨ (Rect.block (s := S159744) S2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048.size a ≤ S159744.size a
  hwx0_11 : ∀ i : grid0.Coords, EltTy.bits .f32 = 32 ∨ (Rect.block (s := S159744) S2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048.size a ≤ S159744.size a
  hwx0_12 : ∀ i : grid0.Coords, EltTy.bits .f32 = 32 ∨ (Rect.block (s := S159744) S2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048.size a ≤ S159744.size a
  hwx0_13 : ∀ i : grid0.Coords, EltTy.bits .f32 = 32 ∨ (Rect.block (s := S159744) S2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x128.size a ≤ S159744x128.size a
  hwx0_14 : ∀ i : grid0.Coords, EltTy.bits .f32 = 32 ∨ (Rect.block (s := S159744x128) S2048x128.size (cc0_transform_14 i) (hinb0_14 i)).WholeWords (EltTy.packing .f32)

variable [Facts₀]

def gather_S390000x1_S4096x39x1_S4096x39x1_2_0_n_n_0_2_11 : GatherDims S390000x1 S4096x39x1 S4096x39x1 where
  offsetDims := [2]
  collapsedSliceDims := [0]
  operandBatchingDims := []
  startIndicesBatchingDims := []
  startIndexMap := [0]
  indexVectorDim := 2
  sliceSizes := ![1, 1]
  wf := gather_S390000x1_S4096x39x1_S4096x39x1_2_0_n_n_0_2_11_wf
def gather_S19500x1x128_S4096x39x1x2_S4096x39x1x128_3_01_n_n_01_3_11128 : GatherDims S19500x1x128 S4096x39x1x2 S4096x39x1x128 where
  offsetDims := [3]
  collapsedSliceDims := [0, 1]
  operandBatchingDims := []
  startIndicesBatchingDims := []
  startIndexMap := [0, 1]
  indexVectorDim := 3
  sliceSizes := ![1, 1, 128]
  wf := gather_S19500x1x128_S4096x39x1x2_S4096x39x1x128_3_01_n_n_01_3_11128_wf
def gather_S9984x1x128_S4096x39x1x2_S4096x39x1x128_3_01_n_n_01_3_11128 : GatherDims S9984x1x128 S4096x39x1x2 S4096x39x1x128 where
  offsetDims := [3]
  collapsedSliceDims := [0, 1]
  operandBatchingDims := []
  startIndicesBatchingDims := []
  startIndexMap := [0, 1]
  indexVectorDim := 3
  sliceSizes := ![1, 1, 128]
  wf := gather_S9984x1x128_S4096x39x1x2_S4096x39x1x128_3_01_n_n_01_3_11128_wf
def gather_S390000x2_S4096x39x1_S4096x39x2_2_0_n_n_0_2_12 : GatherDims S390000x2 S4096x39x1 S4096x39x2 where
  offsetDims := [2]
  collapsedSliceDims := [0]
  operandBatchingDims := []
  startIndicesBatchingDims := []
  startIndexMap := [0]
  indexVectorDim := 2
  sliceSizes := ![1, 2]
  wf := gather_S390000x2_S4096x39x1_S4096x39x2_2_0_n_n_0_2_12_wf
def gather_S9984x2x64_S4096x39x2x2_S4096x39x2x64_3_01_n_n_01_3_1164 : GatherDims S9984x2x64 S4096x39x2x2 S4096x39x2x64 where
  offsetDims := [3]
  collapsedSliceDims := [0, 1]
  operandBatchingDims := []
  startIndicesBatchingDims := []
  startIndexMap := [0, 1]
  indexVectorDim := 3
  sliceSizes := ![1, 1, 64]
  wf := gather_S9984x2x64_S4096x39x2x2_S4096x39x2x64_3_01_n_n_01_3_1164_wf
def gather_S390000x4_S4096x39x1_S4096x39x4_2_0_n_n_0_2_14 : GatherDims S390000x4 S4096x39x1 S4096x39x4 where
  offsetDims := [2]
  collapsedSliceDims := [0]
  operandBatchingDims := []
  startIndicesBatchingDims := []
  startIndexMap := [0]
  indexVectorDim := 2
  sliceSizes := ![1, 4]
  wf := gather_S390000x4_S4096x39x1_S4096x39x4_2_0_n_n_0_2_14_wf
def gather_S9984x4x32_S4096x39x4x2_S4096x39x4x32_3_01_n_n_01_3_1132 : GatherDims S9984x4x32 S4096x39x4x2 S4096x39x4x32 where
  offsetDims := [3]
  collapsedSliceDims := [0, 1]
  operandBatchingDims := []
  startIndicesBatchingDims := []
  startIndexMap := [0, 1]
  indexVectorDim := 3
  sliceSizes := ![1, 1, 32]
  wf := gather_S9984x4x32_S4096x39x4x2_S4096x39x4x32_3_01_n_n_01_3_1132_wf
def gather_S19968x1x128_S4096x39x1x2_S4096x39x1x128_3_01_n_n_01_3_11128 : GatherDims S19968x1x128 S4096x39x1x2 S4096x39x1x128 where
  offsetDims := [3]
  collapsedSliceDims := [0, 1]
  operandBatchingDims := []
  startIndicesBatchingDims := []
  startIndexMap := [0, 1]
  indexVectorDim := 3
  sliceSizes := ![1, 1, 128]
  wf := gather_S19968x1x128_S4096x39x1x2_S4096x39x1x128_3_01_n_n_01_3_11128_wf
def gather_S19968x2x64_S4096x39x2x2_S4096x39x2x64_3_01_n_n_01_3_1164 : GatherDims S19968x2x64 S4096x39x2x2 S4096x39x2x64 where
  offsetDims := [3]
  collapsedSliceDims := [0, 1]
  operandBatchingDims := []
  startIndicesBatchingDims := []
  startIndexMap := [0, 1]
  indexVectorDim := 3
  sliceSizes := ![1, 1, 64]
  wf := gather_S19968x2x64_S4096x39x2x2_S4096x39x2x64_3_01_n_n_01_3_1164_wf
def gather_S19968x4x32_S4096x39x4x2_S4096x39x4x32_3_01_n_n_01_3_1132 : GatherDims S19968x4x32 S4096x39x4x2 S4096x39x4x32 where
  offsetDims := [3]
  collapsedSliceDims := [0, 1]
  operandBatchingDims := []
  startIndicesBatchingDims := []
  startIndexMap := [0, 1]
  indexVectorDim := 3
  sliceSizes := ![1, 1, 32]
  wf := gather_S19968x4x32_S4096x39x4x2_S4096x39x4x32_3_01_n_n_01_3_1132_wf

abbrev win0_0 : Pipeline.Window sig grid0 :=
  Pipeline.Window.ofSpec (Memref.whole main_v31) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v93) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v124) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v155) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v186) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v217) S2048x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v36) S2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v67) S2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v98) S2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v129) S2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v160) S2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v191) S2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v222) S2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v223) S2048x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4096x39 : Shape := ⟨2, ![4096, 39]⟩
abbrev S39x9 : Shape := ⟨2, ![39, 9]⟩
abbrev S19500x128 : Shape := ⟨2, ![19500, 128]⟩
abbrev S390000x1 : Shape := ⟨2, ![390000, 1]⟩
abbrev S9984x128 : Shape := ⟨2, ![9984, 128]⟩
abbrev S390000x2 : Shape := ⟨2, ![390000, 2]⟩
abbrev S390000x4 : Shape := ⟨2, ![390000, 4]⟩
abbrev S19968x128 : Shape := ⟨2, ![19968, 128]⟩
abbrev S39 : Shape := ⟨1, ![39]⟩
abbrev S_ : Shape := ⟨0, ![]⟩
abbrev S1x39 : Shape := ⟨2, ![1, 39]⟩
abbrev S4096x39x128 : Shape := ⟨3, ![4096, 39, 128]⟩
abbrev S4096x39x1 : Shape := ⟨3, ![4096, 39, 1]⟩
abbrev S19500x1x128 : Shape := ⟨3, ![19500, 1, 128]⟩
abbrev S1 : Shape := ⟨1, ![1]⟩
abbrev S1x1x1 : Shape := ⟨3, ![1, 1, 1]⟩
abbrev S4096x39x1x1 : Shape := ⟨4, ![4096, 39, 1, 1]⟩
abbrev S4096x39x1x2 : Shape := ⟨4, ![4096, 39, 1, 2]⟩
abbrev S4096x39x1x128 : Shape := ⟨4, ![4096, 39, 1, 128]⟩
abbrev S39x1 : Shape := ⟨2, ![39, 1]⟩
abbrev S1x39x1x1 : Shape := ⟨4, ![1, 39, 1, 1]⟩
abbrev S9984x1x128 : Shape := ⟨3, ![9984, 1, 128]⟩
abbrev S4096x39x2 : Shape := ⟨3, ![4096, 39, 2]⟩
abbrev S9984x2x64 : Shape := ⟨3, ![9984, 2, 64]⟩
abbrev S2 : Shape := ⟨1, ![2]⟩
abbrev S1x1x2 : Shape := ⟨3, ![1, 1, 2]⟩
abbrev S4096x39x2x1 : Shape := ⟨4, ![4096, 39, 2, 1]⟩
abbrev S4096x39x2x2 : Shape := ⟨4, ![4096, 39, 2, 2]⟩
abbrev S4096x39x2x64 : Shape := ⟨4, ![4096, 39, 2, 64]⟩
abbrev S4096x39x4 : Shape := ⟨3, ![4096, 39, 4]⟩
abbrev S9984x4x32 : Shape := ⟨3, ![9984, 4, 32]⟩
abbrev S4 : Shape := ⟨1, ![4]⟩
abbrev S1x1x4 : Shape := ⟨3, ![1, 1, 4]⟩
abbrev S4096x39x4x1 : Shape := ⟨4, ![4096, 39, 4, 1]⟩
abbrev S4096x39x4x2 : Shape := ⟨4, ![4096, 39, 4, 2]⟩
abbrev S4096x39x4x32 : Shape := ⟨4, ![4096, 39, 4, 32]⟩
abbrev S19968x1x128 : Shape := ⟨3, ![19968, 1, 128]⟩
abbrev S19968x2x64 : Shape := ⟨3, ![19968, 2, 64]⟩
abbrev S19968x4x32 : Shape := ⟨3, ![19968, 4, 32]⟩

abbrev nBuf : Space → Nat
  | .hbm => 291
  | .vmem => 0
  | .smem => 0
  | _ => 0

abbrev hbmTy0_0 (i : Nat) : BufTy := match i % 128 with
  | 0 => ⟨S4096x39, .i32⟩
  | 1 => ⟨S39x9, .f32⟩
  | 2 => ⟨S19500x128, .f32⟩
  | 3 => ⟨S390000x1, .i32⟩
  | 4 => ⟨S9984x128, .f32⟩
  | 5 => ⟨S390000x1, .i32⟩
  | 6 => ⟨S9984x128, .f32⟩
  | 7 => ⟨S390000x2, .i32⟩
  | 8 => ⟨S9984x128, .f32⟩
  | 9 => ⟨S390000x4, .i32⟩
  | 10 => ⟨S19968x128, .f32⟩
  | 11 => ⟨S390000x1, .i32⟩
  | 12 => ⟨S19968x128, .f32⟩
  | 13 => ⟨S390000x2, .i32⟩
  | 14 => ⟨S19968x128, .f32⟩
  | 15 => ⟨S390000x4, .i32⟩
  | 16 => ⟨S39, .i32⟩
  | 17 => ⟨S_, .i32⟩
  | 18 => ⟨S39, .i32⟩
  | 19 => ⟨S39, .i32⟩
  | 20 => ⟨S1x39, .i32⟩
  | 21 => ⟨S4096x39, .i32⟩
  | 22 => ⟨S4096x39, .i32⟩
  | 23 => ⟨S_, .f32⟩
  | 24 => ⟨S4096x39x128, .f32⟩
  | 25 => ⟨S_, .i32⟩
  | 26 => ⟨S4096x39, .i32⟩
  | 27 => ⟨S4096x39, .i1⟩
  | 28 => ⟨S_, .i32⟩
  | 29 => ⟨S4096x39, .i32⟩
  | 30 => ⟨S4096x39, .i32⟩
  | 31 => ⟨S4096x39, .i32⟩
  | 32 => ⟨S4096x39x1, .i32⟩
  | 33 => ⟨S4096x39x1, .i32⟩
  | 34 => ⟨S19500x1x128, .f32⟩
  | 35 => ⟨S1, .i32⟩
  | 36 => ⟨S1x1x1, .i32⟩
  | 37 => ⟨S_, .i32⟩
  | 38 => ⟨S4096x39x1, .i32⟩
  | 39 => ⟨S4096x39x1, .i1⟩
  | 40 => ⟨S_, .i32⟩
  | 41 => ⟨S4096x39x1, .i32⟩
  | 42 => ⟨S4096x39x1, .i32⟩
  | 43 => ⟨S4096x39x1, .i32⟩
  | 44 => ⟨S_, .i32⟩
  | 45 => ⟨S1x1x1, .i32⟩
  | 46 => ⟨S1x1x1, .i1⟩
  | 47 => ⟨S_, .i32⟩
  | 48 => ⟨S1x1x1, .i32⟩
  | 49 => ⟨S1x1x1, .i32⟩
  | 50 => ⟨S1x1x1, .i32⟩
  | 51 => ⟨S4096x39x1, .i32⟩
  | 52 => ⟨S4096x39x1x1, .i32⟩
  | 53 => ⟨S4096x39x1x1, .i32⟩
  | 54 => ⟨S4096x39x1x2, .i32⟩
  | 55 => ⟨S4096x39x1x128, .f32⟩
  | 56 => ⟨S39x1, .f32⟩
  | 57 => ⟨S39, .f32⟩
  | 58 => ⟨S1x39x1x1, .f32⟩
  | 59 => ⟨S4096x39x1x128, .f32⟩
  | 60 => ⟨S4096x39x1x128, .f32⟩
  | 61 => ⟨S4096x39x128, .f32⟩
  | 62 => ⟨S4096x39x128, .f32⟩
  | 63 => ⟨S_, .i32⟩
  | 64 => ⟨S4096x39, .i32⟩
  | 65 => ⟨S4096x39, .i1⟩
  | 66 => ⟨S_, .i32⟩
  | 67 => ⟨S4096x39, .i32⟩
  | 68 => ⟨S4096x39, .i32⟩
  | 69 => ⟨S4096x39, .i32⟩
  | 70 => ⟨S4096x39x1, .i32⟩
  | 71 => ⟨S4096x39x1, .i32⟩
  | 72 => ⟨S9984x1x128, .f32⟩
  | 73 => ⟨S1, .i32⟩
  | 74 => ⟨S1x1x1, .i32⟩
  | 75 => ⟨S_, .i32⟩
  | 76 => ⟨S4096x39x1, .i32⟩
  | 77 => ⟨S4096x39x1, .i1⟩
  | 78 => ⟨S_, .i32⟩
  | 79 => ⟨S4096x39x1, .i32⟩
  | 80 => ⟨S4096x39x1, .i32⟩
  | 81 => ⟨S4096x39x1, .i32⟩
  | 82 => ⟨S_, .i32⟩
  | 83 => ⟨S1x1x1, .i32⟩
  | 84 => ⟨S1x1x1, .i1⟩
  | 85 => ⟨S_, .i32⟩
  | 86 => ⟨S1x1x1, .i32⟩
  | 87 => ⟨S1x1x1, .i32⟩
  | 88 => ⟨S1x1x1, .i32⟩
  | 89 => ⟨S4096x39x1, .i32⟩
  | 90 => ⟨S4096x39x1x1, .i32⟩
  | 91 => ⟨S4096x39x1x1, .i32⟩
  | 92 => ⟨S4096x39x1x2, .i32⟩
  | 93 => ⟨S4096x39x1x128, .f32⟩
  | 94 => ⟨S39x1, .f32⟩
  | 95 => ⟨S39, .f32⟩
  | 96 => ⟨S1x39x1x1, .f32⟩
  | 97 => ⟨S4096x39x1x128, .f32⟩
  | 98 => ⟨S4096x39x1x128, .f32⟩
  | 99 => ⟨S4096x39x128, .f32⟩
  | 100 => ⟨S4096x39x128, .f32⟩
  | 101 => ⟨S_, .i32⟩
  | 102 => ⟨S4096x39, .i32⟩
  | 103 => ⟨S4096x39, .i1⟩
  | 104 => ⟨S_, .i32⟩
  | 105 => ⟨S4096x39, .i32⟩
  | 106 => ⟨S4096x39, .i32⟩
  | 107 => ⟨S4096x39, .i32⟩
  | 108 => ⟨S4096x39x1, .i32⟩
  | 109 => ⟨S4096x39x2, .i32⟩
  | 110 => ⟨S9984x2x64, .f32⟩
  | 111 => ⟨S2, .i32⟩
  | 112 => ⟨S1x1x2, .i32⟩
  | 113 => ⟨S_, .i32⟩
  | 114 => ⟨S4096x39x2, .i32⟩
  | 115 => ⟨S4096x39x2, .i1⟩
  | 116 => ⟨S_, .i32⟩
  | 117 => ⟨S4096x39x2, .i32⟩
  | 118 => ⟨S4096x39x2, .i32⟩
  | 119 => ⟨S4096x39x2, .i32⟩
  | 120 => ⟨S_, .i32⟩
  | 121 => ⟨S1x1x2, .i32⟩
  | 122 => ⟨S1x1x2, .i1⟩
  | 123 => ⟨S_, .i32⟩
  | 124 => ⟨S1x1x2, .i32⟩
  | 125 => ⟨S1x1x2, .i32⟩
  | 126 => ⟨S1x1x2, .i32⟩
  | 127 => ⟨S4096x39x2, .i32⟩
  | _ => ⟨S4096x39, .i32⟩

abbrev hbmTy0_1 (i : Nat) : BufTy := match i % 128 with
  | 0 => ⟨S4096x39x2x1, .i32⟩
  | 1 => ⟨S4096x39x2x1, .i32⟩
  | 2 => ⟨S4096x39x2x2, .i32⟩
  | 3 => ⟨S4096x39x2x64, .f32⟩
  | 4 => ⟨S39x1, .f32⟩
  | 5 => ⟨S39, .f32⟩
  | 6 => ⟨S1x39x1x1, .f32⟩
  | 7 => ⟨S4096x39x2x64, .f32⟩
  | 8 => ⟨S4096x39x2x64, .f32⟩
  | 9 => ⟨S4096x39x128, .f32⟩
  | 10 => ⟨S4096x39x128, .f32⟩
  | 11 => ⟨S_, .i32⟩
  | 12 => ⟨S4096x39, .i32⟩
  | 13 => ⟨S4096x39, .i1⟩
  | 14 => ⟨S_, .i32⟩
  | 15 => ⟨S4096x39, .i32⟩
  | 16 => ⟨S4096x39, .i32⟩
  | 17 => ⟨S4096x39, .i32⟩
  | 18 => ⟨S4096x39x1, .i32⟩
  | 19 => ⟨S4096x39x4, .i32⟩
  | 20 => ⟨S9984x4x32, .f32⟩
  | 21 => ⟨S4, .i32⟩
  | 22 => ⟨S1x1x4, .i32⟩
  | 23 => ⟨S_, .i32⟩
  | 24 => ⟨S4096x39x4, .i32⟩
  | 25 => ⟨S4096x39x4, .i1⟩
  | 26 => ⟨S_, .i32⟩
  | 27 => ⟨S4096x39x4, .i32⟩
  | 28 => ⟨S4096x39x4, .i32⟩
  | 29 => ⟨S4096x39x4, .i32⟩
  | 30 => ⟨S_, .i32⟩
  | 31 => ⟨S1x1x4, .i32⟩
  | 32 => ⟨S1x1x4, .i1⟩
  | 33 => ⟨S_, .i32⟩
  | 34 => ⟨S1x1x4, .i32⟩
  | 35 => ⟨S1x1x4, .i32⟩
  | 36 => ⟨S1x1x4, .i32⟩
  | 37 => ⟨S4096x39x4, .i32⟩
  | 38 => ⟨S4096x39x4x1, .i32⟩
  | 39 => ⟨S4096x39x4x1, .i32⟩
  | 40 => ⟨S4096x39x4x2, .i32⟩
  | 41 => ⟨S4096x39x4x32, .f32⟩
  | 42 => ⟨S39x1, .f32⟩
  | 43 => ⟨S39, .f32⟩
  | 44 => ⟨S1x39x1x1, .f32⟩
  | 45 => ⟨S4096x39x4x32, .f32⟩
  | 46 => ⟨S4096x39x4x32, .f32⟩
  | 47 => ⟨S4096x39x128, .f32⟩
  | 48 => ⟨S4096x39x128, .f32⟩
  | 49 => ⟨S_, .i32⟩
  | 50 => ⟨S4096x39, .i32⟩
  | 51 => ⟨S4096x39, .i1⟩
  | 52 => ⟨S_, .i32⟩
  | 53 => ⟨S4096x39, .i32⟩
  | 54 => ⟨S4096x39, .i32⟩
  | 55 => ⟨S4096x39, .i32⟩
  | 56 => ⟨S4096x39x1, .i32⟩
  | 57 => ⟨S4096x39x1, .i32⟩
  | 58 => ⟨S19968x1x128, .f32⟩
  | 59 => ⟨S1, .i32⟩
  | 60 => ⟨S1x1x1, .i32⟩
  | 61 => ⟨S_, .i32⟩
  | 62 => ⟨S4096x39x1, .i32⟩
  | 63 => ⟨S4096x39x1, .i1⟩
  | 64 => ⟨S_, .i32⟩
  | 65 => ⟨S4096x39x1, .i32⟩
  | 66 => ⟨S4096x39x1, .i32⟩
  | 67 => ⟨S4096x39x1, .i32⟩
  | 68 => ⟨S_, .i32⟩
  | 69 => ⟨S1x1x1, .i32⟩
  | 70 => ⟨S1x1x1, .i1⟩
  | 71 => ⟨S_, .i32⟩
  | 72 => ⟨S1x1x1, .i32⟩
  | 73 => ⟨S1x1x1, .i32⟩
  | 74 => ⟨S1x1x1, .i32⟩
  | 75 => ⟨S4096x39x1, .i32⟩
  | 76 => ⟨S4096x39x1x1, .i32⟩
  | 77 => ⟨S4096x39x1x1, .i32⟩
  | 78 => ⟨S4096x39x1x2, .i32⟩
  | 79 => ⟨S4096x39x1x128, .f32⟩
  | 80 => ⟨S39x1, .f32⟩
  | 81 => ⟨S39, .f32⟩
  | 82 => ⟨S1x39x1x1, .f32⟩
  | 83 => ⟨S4096x39x1x128, .f32⟩
  | 84 => ⟨S4096x39x1x128, .f32⟩
  | 85 => ⟨S4096x39x128, .f32⟩
  | 86 => ⟨S4096x39x128, .f32⟩
  | 87 => ⟨S_, .i32⟩
  | 88 => ⟨S4096x39, .i32⟩
  | 89 => ⟨S4096x39, .i1⟩
  | 90 => ⟨S_, .i32⟩
  | 91 => ⟨S4096x39, .i32⟩
  | 92 => ⟨S4096x39, .i32⟩
  | 93 => ⟨S4096x39, .i32⟩
  | 94 => ⟨S4096x39x1, .i32⟩
  | 95 => ⟨S4096x39x2, .i32⟩
  | 96 => ⟨S19968x2x64, .f32⟩
  | 97 => ⟨S2, .i32⟩
  | 98 => ⟨S1x1x2, .i32⟩
  | 99 => ⟨S_, .i32⟩
  | 100 => ⟨S4096x39x2, .i32⟩
  | 101 => ⟨S4096x39x2, .i1⟩
  | 102 => ⟨S_, .i32⟩
  | 103 => ⟨S4096x39x2, .i32⟩
  | 104 => ⟨S4096x39x2, .i32⟩
  | 105 => ⟨S4096x39x2, .i32⟩
  | 106 => ⟨S_, .i32⟩
  | 107 => ⟨S1x1x2, .i32⟩
  | 108 => ⟨S1x1x2, .i1⟩
  | 109 => ⟨S_, .i32⟩
  | 110 => ⟨S1x1x2, .i32⟩
  | 111 => ⟨S1x1x2, .i32⟩
  | 112 => ⟨S1x1x2, .i32⟩
  | 113 => ⟨S4096x39x2, .i32⟩
  | 114 => ⟨S4096x39x2x1, .i32⟩
  | 115 => ⟨S4096x39x2x1, .i32⟩
  | 116 => ⟨S4096x39x2x2, .i32⟩
  | 117 => ⟨S4096x39x2x64, .f32⟩
  | 118 => ⟨S39x1, .f32⟩
  | 119 => ⟨S39, .f32⟩
  | 120 => ⟨S1x39x1x1, .f32⟩
  | 121 => ⟨S4096x39x2x64, .f32⟩
  | 122 => ⟨S4096x39x2x64, .f32⟩
  | 123 => ⟨S4096x39x128, .f32⟩
  | 124 => ⟨S4096x39x128, .f32⟩
  | 125 => ⟨S_, .i32⟩
  | 126 => ⟨S4096x39, .i32⟩
  | 127 => ⟨S4096x39, .i1⟩
  | _ => ⟨S4096x39, .i32⟩

abbrev hbmTy0_2 (i : Nat) : BufTy := match i % 128 with
  | 0 => ⟨S_, .i32⟩
  | 1 => ⟨S4096x39, .i32⟩
  | 2 => ⟨S4096x39, .i32⟩
  | 3 => ⟨S4096x39, .i32⟩
  | 4 => ⟨S4096x39x1, .i32⟩
  | 5 => ⟨S4096x39x4, .i32⟩
  | 6 => ⟨S19968x4x32, .f32⟩
  | 7 => ⟨S4, .i32⟩
  | 8 => ⟨S1x1x4, .i32⟩
  | 9 => ⟨S_, .i32⟩
  | 10 => ⟨S4096x39x4, .i32⟩
  | 11 => ⟨S4096x39x4, .i1⟩
  | 12 => ⟨S_, .i32⟩
  | 13 => ⟨S4096x39x4, .i32⟩
  | 14 => ⟨S4096x39x4, .i32⟩
  | 15 => ⟨S4096x39x4, .i32⟩
  | 16 => ⟨S_, .i32⟩
  | 17 => ⟨S1x1x4, .i32⟩
  | 18 => ⟨S1x1x4, .i1⟩
  | 19 => ⟨S_, .i32⟩
  | 20 => ⟨S1x1x4, .i32⟩
  | 21 => ⟨S1x1x4, .i32⟩
  | 22 => ⟨S1x1x4, .i32⟩
  | 23 => ⟨S4096x39x4, .i32⟩
  | 24 => ⟨S4096x39x4x1, .i32⟩
  | 25 => ⟨S4096x39x4x1, .i32⟩
  | 26 => ⟨S4096x39x4x2, .i32⟩
  | 27 => ⟨S4096x39x4x32, .f32⟩
  | 28 => ⟨S39x1, .f32⟩
  | 29 => ⟨S39, .f32⟩
  | 30 => ⟨S1x39x1x1, .f32⟩
  | 31 => ⟨S4096x39x4x32, .f32⟩
  | 32 => ⟨S4096x39x4x32, .f32⟩
  | 33 => ⟨S4096x39x128, .f32⟩
  | 34 => ⟨S4096x39x128, .f32⟩
  | _ => ⟨S4096x39, .i32⟩

abbrev hbmTy (i : Nat) : BufTy := match i / 128 with
  | 0 => hbmTy0_0 i
  | 1 => hbmTy0_1 i
  | 2 => hbmTy0_2 i
  | _ => ⟨S4096x39, .i32⟩

abbrev bufTy : (tb : Table) → Fin (tcTables nBuf tb) → BufTy
  | .hbm, ⟨i, _⟩ => hbmTy i
  | _, _ => ⟨S4096x39, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_6 : Ref sig .tc := ⟨.hbm, 63, rfl⟩
abbrev main_v39 : Ref sig .tc := ⟨.hbm, 64, rfl⟩
abbrev main_v40 : Ref sig .tc := ⟨.hbm, 65, rfl⟩
abbrev main_c_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_14 : Ref sig .tc := ⟨.hbm, 113, rfl⟩
abbrev main_v81 : Ref sig .tc := ⟨.hbm, 114, rfl⟩
abbrev main_v82 : Ref sig .tc := ⟨.hbm, 115, rfl⟩
abbrev main_c_15 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_c_17 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_18 : Ref sig .tc := ⟨.hbm, 139, rfl⟩
abbrev main_v103 : Ref sig .tc := ⟨.hbm, 140, rfl⟩
abbrev main_v104 : Ref sig .tc := ⟨.hbm, 141, rfl⟩
abbrev main_c_19 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_c_20 : Ref sig .tc := ⟨.hbm, 151, rfl⟩
abbrev main_v113 : Ref sig .tc := ⟨.hbm, 152, rfl⟩
abbrev main_v114 : Ref sig .tc := ⟨.hbm, 153, rfl⟩
abbrev main_c_21 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_22 : Ref sig .tc := ⟨.hbm, 158, rfl⟩
abbrev main_v118 : Ref sig .tc := ⟨.hbm, 159, rfl⟩
abbrev main_v119 : Ref sig .tc := ⟨.hbm, 160, rfl⟩
abbrev main_c_23 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_c_24 : Ref sig .tc := ⟨.hbm, 177, rfl⟩
abbrev main_v135 : Ref sig .tc := ⟨.hbm, 178, rfl⟩
abbrev main_v136 : Ref sig .tc := ⟨.hbm, 179, rfl⟩
abbrev main_c_25 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_c_26 : Ref sig .tc := ⟨.hbm, 189, rfl⟩
abbrev main_v145 : Ref sig .tc := ⟨.hbm, 190, rfl⟩
abbrev main_v146 : Ref sig .tc := ⟨.hbm, 191, rfl⟩
abbrev main_c_27 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_c_28 : Ref sig .tc := ⟨.hbm, 196, rfl⟩
abbrev main_v150 : Ref sig .tc := ⟨.hbm, 197, rfl⟩
abbrev main_v151 : Ref sig .tc := ⟨.hbm, 198, rfl⟩
abbrev main_c_29 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_c_30 : Ref sig .tc := ⟨.hbm, 215, rfl⟩
abbrev main_v167 : Ref sig .tc := ⟨.hbm, 216, rfl⟩
abbrev main_v168 : Ref sig .tc := ⟨.hbm, 217, rfl⟩
abbrev main_c_31 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_c_32 : Ref sig .tc := ⟨.hbm, 227, rfl⟩
abbrev main_v177 : Ref sig .tc := ⟨.hbm, 228, rfl⟩
abbrev main_v178 : Ref sig .tc := ⟨.hbm, 229, rfl⟩
abbrev main_c_33 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_c_34 : Ref sig .tc := ⟨.hbm, 234, rfl⟩
abbrev main_v182 : Ref sig .tc := ⟨.hbm, 235, rfl⟩
abbrev main_v183 : Ref sig .tc := ⟨.hbm, 236, rfl⟩
abbrev main_c_35 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_c_36 : Ref sig .tc := ⟨.hbm, 253, rfl⟩
abbrev main_v199 : Ref sig .tc := ⟨.hbm, 254, rfl⟩
abbrev main_v200 : Ref sig .tc := ⟨.hbm, 255, rfl⟩
abbrev main_c_37 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_c_38 : Ref sig .tc := ⟨.hbm, 265, rfl⟩
abbrev main_v209 : Ref sig .tc := ⟨.hbm, 266, rfl⟩
abbrev main_v210 : Ref sig .tc := ⟨.hbm, 267, rfl⟩
abbrev main_c_39 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_c_40 : Ref sig .tc := ⟨.hbm, 272, rfl⟩
abbrev main_v214 : Ref sig .tc := ⟨.hbm, 273, rfl⟩
abbrev main_v215 : Ref sig .tc := ⟨.hbm, 274, rfl⟩
abbrev main_c_41 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩

abbrev nD : Nat := 1
abbrev τ : Topo := Topo.v7x

variable {F : FTy → Type} [FloatOps F]

class Facts₀ : Prop where
  bcast_S_S39 : S_.BroadcastsInDim S39 (![] : Fin 0 → Fin S39.rank)
  bcast_S39_S1x39_1 : S39.BroadcastsInDim S1x39 (![1] : Fin 1 → Fin S1x39.rank)
  bcast_S1x39_S4096x39_0_1 : S1x39.BroadcastsInDim S4096x39 (![0, 1] : Fin 2 → Fin S4096x39.rank)
  bcast_S_S4096x39x128 : S_.BroadcastsInDim S4096x39x128 (![] : Fin 0 → Fin S4096x39x128.rank)
  bcast_S_S4096x39 : S_.BroadcastsInDim S4096x39 (![] : Fin 0 → Fin S4096x39.rank)
  bcast_S4096x39_S4096x39x1_0_1 : S4096x39.BroadcastsInDim S4096x39x1 (![0, 1] : Fin 2 → Fin S4096x39x1.rank)
  shapeCasts_S19500x128_S19500x1x128 : S19500x128.ShapeCasts S19500x1x128
  bcast_S1_S1x1x1_2 : S1.BroadcastsInDim S1x1x1 (![2] : Fin 1 → Fin S1x1x1.rank)
  bcast_S_S4096x39x1 : S_.BroadcastsInDim S4096x39x1 (![] : Fin 0 → Fin S4096x39x1.rank)
  bcast_S_S1x1x1 : S_.BroadcastsInDim S1x1x1 (![] : Fin 0 → Fin S1x1x1.rank)
  bcast_S1x1x1_S4096x39x1_0_1_2 : S1x1x1.BroadcastsInDim S4096x39x1 (![0, 1, 2] : Fin 3 → Fin S4096x39x1.rank)
  bcast_S4096x39x1_S4096x39x1x1_0_1_2 : S4096x39x1.BroadcastsInDim S4096x39x1x1 (![0, 1, 2] : Fin 3 → Fin S4096x39x1x1.rank)
  concatenates_S4096x39x1x1_S4096x39x1x1_S4096x39x1x2_d3 : Shape.Concatenates [S4096x39x1x1, S4096x39x1x1] S4096x39x1x2 3
  slices_S39x9_S39x1_0_0 : S39x9.Slices ![0, 0] S39x1
  shapeCasts_S39x1_S39 : S39x1.ShapeCasts S39
  bcast_S39_S1x39x1x1_1 : S39.BroadcastsInDim S1x39x1x1 (![1] : Fin 1 → Fin S1x39x1x1.rank)
  bcast_S1x39x1x1_S4096x39x1x128_0_1_2_3 : S1x39x1x1.BroadcastsInDim S4096x39x1x128 (![0, 1, 2, 3] : Fin 4 → Fin S4096x39x1x128.rank)
  shapeCasts_S4096x39x1x128_S4096x39x128 : S4096x39x1x128.ShapeCasts S4096x39x128
  shapeCasts_S9984x128_S9984x1x128 : S9984x128.ShapeCasts S9984x1x128
  slices_S39x9_S39x1_0_3 : S39x9.Slices ![0, 3] S39x1
  shapeCasts_S9984x128_S9984x2x64 : S9984x128.ShapeCasts S9984x2x64
  bcast_S2_S1x1x2_2 : S2.BroadcastsInDim S1x1x2 (![2] : Fin 1 → Fin S1x1x2.rank)
  bcast_S_S4096x39x2 : S_.BroadcastsInDim S4096x39x2 (![] : Fin 0 → Fin S4096x39x2.rank)
  bcast_S_S1x1x2 : S_.BroadcastsInDim S1x1x2 (![] : Fin 0 → Fin S1x1x2.rank)
  bcast_S1x1x2_S4096x39x2_0_1_2 : S1x1x2.BroadcastsInDim S4096x39x2 (![0, 1, 2] : Fin 3 → Fin S4096x39x2.rank)
  bcast_S4096x39x2_S4096x39x2x1_0_1_2 : S4096x39x2.BroadcastsInDim S4096x39x2x1 (![0, 1, 2] : Fin 3 → Fin S4096x39x2x1.rank)
  concatenates_S4096x39x2x1_S4096x39x2x1_S4096x39x2x2_d3 : Shape.Concatenates [S4096x39x2x1, S4096x39x2x1] S4096x39x2x2 3
  slices_S39x9_S39x1_0_4 : S39x9.Slices ![0, 4] S39x1
  bcast_S1x39x1x1_S4096x39x2x64_0_1_2_3 : S1x39x1x1.BroadcastsInDim S4096x39x2x64 (![0, 1, 2, 3] : Fin 4 → Fin S4096x39x2x64.rank)
  shapeCasts_S4096x39x2x64_S4096x39x128 : S4096x39x2x64.ShapeCasts S4096x39x128
  shapeCasts_S9984x128_S9984x4x32 : S9984x128.ShapeCasts S9984x4x32
  bcast_S4_S1x1x4_2 : S4.BroadcastsInDim S1x1x4 (![2] : Fin 1 → Fin S1x1x4.rank)
  bcast_S_S4096x39x4 : S_.BroadcastsInDim S4096x39x4 (![] : Fin 0 → Fin S4096x39x4.rank)
  bcast_S_S1x1x4 : S_.BroadcastsInDim S1x1x4 (![] : Fin 0 → Fin S1x1x4.rank)
  bcast_S1x1x4_S4096x39x4_0_1_2 : S1x1x4.BroadcastsInDim S4096x39x4 (![0, 1, 2] : Fin 3 → Fin S4096x39x4.rank)
  bcast_S4096x39x4_S4096x39x4x1_0_1_2 : S4096x39x4.BroadcastsInDim S4096x39x4x1 (![0, 1, 2] : Fin 3 → Fin S4096x39x4x1.rank)
  concatenates_S4096x39x4x1_S4096x39x4x1_S4096x39x4x2_d3 : Shape.Concatenates [S4096x39x4x1, S4096x39x4x1] S4096x39x4x2 3
  slices_S39x9_S39x1_0_5 : S39x9.Slices ![0, 5] S39x1
  bcast_S1x39x1x1_S4096x39x4x32_0_1_2_3 : S1x39x1x1.BroadcastsInDim S4096x39x4x32 (![0, 1, 2, 3] : Fin 4 → Fin S4096x39x4x32.rank)
  shapeCasts_S4096x39x4x32_S4096x39x128 : S4096x39x4x32.ShapeCasts S4096x39x128
  shapeCasts_S19968x128_S19968x1x128 : S19968x128.ShapeCasts S19968x1x128
  slices_S39x9_S39x1_0_6 : S39x9.Slices ![0, 6] S39x1
  shapeCasts_S19968x128_S19968x2x64 : S19968x128.ShapeCasts S19968x2x64
  slices_S39x9_S39x1_0_7 : S39x9.Slices ![0, 7] S39x1
  shapeCasts_S19968x128_S19968x4x32 : S19968x128.ShapeCasts S19968x4x32
  slices_S39x9_S39x1_0_8 : S39x9.Slices ![0, 8] S39x1
  gather_S390000x1_S4096x39x1_S4096x39x1_2_0_n_n_0_2_11_wf : GatherDims.WF S390000x1 S4096x39x1 S4096x39x1 [2] [0] [] [0] [] 2 ![1, 1]
  gather_S19500x1x128_S4096x39x1x2_S4096x39x1x128_3_01_n_n_01_3_11128_wf : GatherDims.WF S19500x1x128 S4096x39x1x2 S4096x39x1x128 [3] [0, 1] [] [0, 1] [] 3 ![1, 1, 128]
  gather_S9984x1x128_S4096x39x1x2_S4096x39x1x128_3_01_n_n_01_3_11128_wf : GatherDims.WF S9984x1x128 S4096x39x1x2 S4096x39x1x128 [3] [0, 1] [] [0, 1] [] 3 ![1, 1, 128]
  gather_S390000x2_S4096x39x1_S4096x39x2_2_0_n_n_0_2_12_wf : GatherDims.WF S390000x2 S4096x39x1 S4096x39x2 [2] [0] [] [0] [] 2 ![1, 2]
  gather_S9984x2x64_S4096x39x2x2_S4096x39x2x64_3_01_n_n_01_3_1164_wf : GatherDims.WF S9984x2x64 S4096x39x2x2 S4096x39x2x64 [3] [0, 1] [] [0, 1] [] 3 ![1, 1, 64]
  gather_S390000x4_S4096x39x1_S4096x39x4_2_0_n_n_0_2_14_wf : GatherDims.WF S390000x4 S4096x39x1 S4096x39x4 [2] [0] [] [0] [] 2 ![1, 4]
  gather_S9984x4x32_S4096x39x4x2_S4096x39x4x32_3_01_n_n_01_3_1132_wf : GatherDims.WF S9984x4x32 S4096x39x4x2 S4096x39x4x32 [3] [0, 1] [] [0, 1] [] 3 ![1, 1, 32]
  gather_S19968x1x128_S4096x39x1x2_S4096x39x1x128_3_01_n_n_01_3_11128_wf : GatherDims.WF S19968x1x128 S4096x39x1x2 S4096x39x1x128 [3] [0, 1] [] [0, 1] [] 3 ![1, 1, 128]
  gather_S19968x2x64_S4096x39x2x2_S4096x39x2x64_3_01_n_n_01_3_1164_wf : GatherDims.WF S19968x2x64 S4096x39x2x2 S4096x39x2x64 [3] [0, 1] [] [0, 1] [] 3 ![1, 1, 64]
  gather_S19968x4x32_S4096x39x4x2_S4096x39x4x32_3_01_n_n_01_3_1132_wf : GatherDims.WF S19968x4x32 S4096x39x4x2 S4096x39x4x32 [3] [0, 1] [] [0, 1] [] 3 ![1, 1, 32]

variable [Facts₀]

def gather_S390000x1_S4096x39x1_S4096x39x1_2_0_n_n_0_2_11 : GatherDims S390000x1 S4096x39x1 S4096x39x1 where
  offsetDims := [2]
  collapsedSliceDims := [0]
  operandBatchingDims := []
  startIndicesBatchingDims := []
  startIndexMap := [0]
  indexVectorDim := 2
  sliceSizes := ![1, 1]
  wf := gather_S390000x1_S4096x39x1_S4096x39x1_2_0_n_n_0_2_11_wf
def gather_S19500x1x128_S4096x39x1x2_S4096x39x1x128_3_01_n_n_01_3_11128 : GatherDims S19500x1x128 S4096x39x1x2 S4096x39x1x128 where
  offsetDims := [3]
  collapsedSliceDims := [0, 1]
  operandBatchingDims := []
  startIndicesBatchingDims := []
  startIndexMap := [0, 1]
  indexVectorDim := 3
  sliceSizes := ![1, 1, 128]
  wf := gather_S19500x1x128_S4096x39x1x2_S4096x39x1x128_3_01_n_n_01_3_11128_wf
def gather_S9984x1x128_S4096x39x1x2_S4096x39x1x128_3_01_n_n_01_3_11128 : GatherDims S9984x1x128 S4096x39x1x2 S4096x39x1x128 where
  offsetDims := [3]
  collapsedSliceDims := [0, 1]
  operandBatchingDims := []
  startIndicesBatchingDims := []
  startIndexMap := [0, 1]
  indexVectorDim := 3
  sliceSizes := ![1, 1, 128]
  wf := gather_S9984x1x128_S4096x39x1x2_S4096x39x1x128_3_01_n_n_01_3_11128_wf
def gather_S390000x2_S4096x39x1_S4096x39x2_2_0_n_n_0_2_12 : GatherDims S390000x2 S4096x39x1 S4096x39x2 where
  offsetDims := [2]
  collapsedSliceDims := [0]
  operandBatchingDims := []
  startIndicesBatchingDims := []
  startIndexMap := [0]
  indexVectorDim := 2
  sliceSizes := ![1, 2]
  wf := gather_S390000x2_S4096x39x1_S4096x39x2_2_0_n_n_0_2_12_wf
def gather_S9984x2x64_S4096x39x2x2_S4096x39x2x64_3_01_n_n_01_3_1164 : GatherDims S9984x2x64 S4096x39x2x2 S4096x39x2x64 where
  offsetDims := [3]
  collapsedSliceDims := [0, 1]
  operandBatchingDims := []
  startIndicesBatchingDims := []
  startIndexMap := [0, 1]
  indexVectorDim := 3
  sliceSizes := ![1, 1, 64]
  wf := gather_S9984x2x64_S4096x39x2x2_S4096x39x2x64_3_01_n_n_01_3_1164_wf
def gather_S390000x4_S4096x39x1_S4096x39x4_2_0_n_n_0_2_14 : GatherDims S390000x4 S4096x39x1 S4096x39x4 where
  offsetDims := [2]
  collapsedSliceDims := [0]
  operandBatchingDims := []
  startIndicesBatchingDims := []
  startIndexMap := [0]
  indexVectorDim := 2
  sliceSizes := ![1, 4]
  wf := gather_S390000x4_S4096x39x1_S4096x39x4_2_0_n_n_0_2_14_wf
def gather_S9984x4x32_S4096x39x4x2_S4096x39x4x32_3_01_n_n_01_3_1132 : GatherDims S9984x4x32 S4096x39x4x2 S4096x39x4x32 where
  offsetDims := [3]
  collapsedSliceDims := [0, 1]
  operandBatchingDims := []
  startIndicesBatchingDims := []
  startIndexMap := [0, 1]
  indexVectorDim := 3
  sliceSizes := ![1, 1, 32]
  wf := gather_S9984x4x32_S4096x39x4x2_S4096x39x4x32_3_01_n_n_01_3_1132_wf
def gather_S19968x1x128_S4096x39x1x2_S4096x39x1x128_3_01_n_n_01_3_11128 : GatherDims S19968x1x128 S4096x39x1x2 S4096x39x1x128 where
  offsetDims := [3]
  collapsedSliceDims := [0, 1]
  operandBatchingDims := []
  startIndicesBatchingDims := []
  startIndexMap := [0, 1]
  indexVectorDim := 3
  sliceSizes := ![1, 1, 128]
  wf := gather_S19968x1x128_S4096x39x1x2_S4096x39x1x128_3_01_n_n_01_3_11128_wf
def gather_S19968x2x64_S4096x39x2x2_S4096x39x2x64_3_01_n_n_01_3_1164 : GatherDims S19968x2x64 S4096x39x2x2 S4096x39x2x64 where
  offsetDims := [3]
  collapsedSliceDims := [0, 1]
  operandBatchingDims := []
  startIndicesBatchingDims := []
  startIndexMap := [0, 1]
  indexVectorDim := 3
  sliceSizes := ![1, 1, 64]
  wf := gather_S19968x2x64_S4096x39x2x2_S4096x39x2x64_3_01_n_n_01_3_1164_wf
def gather_S19968x4x32_S4096x39x4x2_S4096x39x4x32_3_01_n_n_01_3_1132 : GatherDims S19968x4x32 S4096x39x4x2 S4096x39x4x32 where
  offsetDims := [3]
  collapsedSliceDims := [0, 1]
  operandBatchingDims := []
  startIndicesBatchingDims := []
  startIndexMap := [0, 1]
  indexVectorDim := 3
  sliceSizes := ![1, 1, 32]
  wf := gather_S19968x4x32_S4096x39x4x2_S4096x39x4x32_3_01_n_n_01_3_1132_wf

class Facts : Prop extends Facts₀ where

variable [Facts]
-- ==== Proof.WeightedRows.lean ====
/-
  The arithmetic of the claim, with neither program in sight.

  There are 4096 samples and 39 fields; a token is a pair (sample b, field f), numbered n = 39 b + f, and each token
  carries a row of 128 numbers.  Seven looked-up arrays supply, for every token, a row of 128 numbers cut into
  1, 2 or 4 equal sub-vectors (shapes [4096, 39, 1, 128], [4096, 39, 2, 64], [4096, 39, 4, 32]), and a 39 × 9 table
  of weights supplies, for each of the seven arrays, one column: the weight of field f.

  One computation flattens each array to [159744, 128] rows, flattens each weight column to one weight per token
  (the column laid along the fields, repeated for every sample), forms  g₀·s₀ + g₁·s₁ + … + g₆·s₆  row by row, left to
  right, and regroups the rows as [4096, 39, 128].  The other keeps the four-axis shape, multiplies each array by its
  weight column laid along the field axis (weight first), regroups each product as [4096, 39, 128], and adds the
  seven to an array of zeros, left to right.

  A regrouping keeps row-major positions, so entry (b, f, d) of either result reads the same entry of each looked-up
  array — sub-vector d / len, place d % len — and the same weight, the table's entry (f, column).  What is left is
  0 + x = x  and  x · y = y · x  on the extended reals, both of which hold at the infinities: no finiteness is used.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

namespace Cert.WeightedRows

open Idealize.ShloMosaic Idealize.ShloMosaic.ValueIdx

/-- One entry per token. -/
abbrev Toks : Shape := ⟨1, ![159744]⟩
/-- One row of 128 per token. -/
abbrev Rows : Shape := ⟨2, ![159744, 128]⟩
/-- One entry per (sample, field). -/
abbrev Grid : Shape := ⟨2, ![4096, 39]⟩
/-- The result: one row of 128 per (sample, field). -/
abbrev Emb : Shape := ⟨3, ![4096, 39, 128]⟩
/-- The table of weights: field × column. -/
abbrev Arch : Shape := ⟨2, ![39, 9]⟩
abbrev Col : Shape := ⟨2, ![39, 1]⟩
abbrev Fld : Shape := ⟨1, ![39]⟩
abbrev FldRow : Shape := ⟨2, ![1, 39]⟩
abbrev FldAxis : Shape := ⟨4, ![1, 39, 1, 1]⟩
/-- A token's row as 1, 2 or 4 sub-vectors. -/
abbrev Sub1 : Shape := ⟨4, ![4096, 39, 1, 128]⟩
abbrev Sub2 : Shape := ⟨4, ![4096, 39, 2, 64]⟩
abbrev Sub4 : Shape := ⟨4, ![4096, 39, 4, 32]⟩
abbrev Scalar0 : Shape := ⟨0, ![]⟩

section Layout
variable {α : Type}

/-! ## A weight column, read at a field -/

/-- Column `col` of the table with its unit axis dropped, at field `f`, is the table's entry (f, col). -/
theorem column_apply (a : Arch.Idx → α) (col : Nat) (hcol : col < 9) (h1 : Arch.Slices ![0, col] Col) (h2 : Col.ShapeCasts Fld)
    (f : Fin 39) :
    shapeCast Fld (extractStridedSlice Col ![0, col] a h1) h2 (ix1 f) = a (ix2 f ⟨col, hcol⟩) := by
  refine (shapeCast_apply _ h2 (ix1 f) (ix2 f (0 : Fin 1)) ?_).trans ?_
  · rw [Shape.rowMajor_val_two, Shape.rowMajor_val_one]
    show f.val * 1 + 0 = f.val
    omega
  · refine extractStridedSlice_apply _ a h1 (ix2 f (0 : Fin 1)) (ix2 f ⟨col, hcol⟩) (fun x => ?_)
    match x with
    | ⟨0, _⟩ => show f.val = 0 + f.val; omega
    | ⟨1, _⟩ => show col = col + 0; omega

/-- The column laid along the fields, repeated for every sample and flattened to tokens: token n = 39 b + f gets the
    table's entry (f, col). -/
theorem token_weight_apply (a : Arch.Idx → α) (col : Nat) (hcol : col < 9) (h1 : Arch.Slices ![0, col] Col) (h2 : Col.ShapeCasts Fld)
    (h3 : Fld.BroadcastsInDim FldRow ![1]) (h4 : FldRow.BroadcastsInDim Grid ![0, 1]) (h5 : Grid.ShapeCasts Toks)
    (b : Fin 4096) (f : Fin 39) (n : Fin 159744) (hn : n.val = b.val * 39 + f.val) :
    shapeCast Toks (broadcastInDim Grid ![0, 1] h4 (broadcastInDim FldRow ![1] h3
      (shapeCast Fld (extractStridedSlice Col ![0, col] a h1) h2))) h5 (ix1 n) = a (ix2 f ⟨col, hcol⟩) := by
  refine (shapeCast_apply _ h5 (ix1 n) (ix2 b f) ?_).trans ?_
  · rw [Shape.rowMajor_val_two, Shape.rowMajor_val_one]
    show b.val * 39 + f.val = n.val
    omega
  refine (broadcastInDim_apply ![0, 1] h4 _ (ix2 b f) (ix2 (0 : Fin 1) f) (fun x => ?_)).trans ?_
  · match x with
    | ⟨0, _⟩ => rfl
    | ⟨1, _⟩ => rfl
  refine (broadcastInDim_apply ![1] h3 _ (ix2 (0 : Fin 1) f) (ix1 f) (fun x => ?_)).trans ?_
  · match x with
    | ⟨0, _⟩ => rfl
  exact column_apply a col hcol h1 h2 f

/-- The column laid along the field axis of a four-axis array: entry (b, f, u, v) gets the table's entry (f, col). -/
theorem field_weight_apply {k len : Nat} (a : Arch.Idx → α) (col : Nat) (hcol : col < 9) (h1 : Arch.Slices ![0, col] Col)
    (h2 : Col.ShapeCasts Fld) (h3 : Fld.BroadcastsInDim FldAxis ![1])
    (h4 : FldAxis.BroadcastsInDim (⟨4, ![4096, 39, k, len]⟩ : Shape) ![0, 1, 2, 3])
    (b : Fin 4096) (f : Fin 39) (u : Fin k) (v : Fin len) :
    broadcastInDim (⟨4, ![4096, 39, k, len]⟩ : Shape) ![0, 1, 2, 3] h4 (broadcastInDim FldAxis ![1] h3
      (shapeCast Fld (extractStridedSlice Col ![0, col] a h1) h2)) (ix4 b f u v) = a (ix2 f ⟨col, hcol⟩) := by
  refine (broadcastInDim_apply ![0, 1, 2, 3] h4 _ (ix4 b f u v) (ix4 (0 : Fin 1) f (0 : Fin 1) (0 : Fin 1)) (fun x => ?_)).trans ?_
  · match x with
    | ⟨0, _⟩ => rfl
    | ⟨1, _⟩ => rfl
    | ⟨2, _⟩ => rfl
    | ⟨3, _⟩ => rfl
  refine (broadcastInDim_apply ![1] h3 _ (ix4 (0 : Fin 1) f (0 : Fin 1) (0 : Fin 1)) (ix1 f) (fun x => ?_)).trans ?_
  · match x with
    | ⟨0, _⟩ => rfl
  exact column_apply a col hcol h1 h2 f

/-! ## Regroupings keep row-major positions -/

/-- Rows regrouped by (sample, field): entry (b, f, d) is entry d of row 39 b + f. -/
theorem emb_of_rows_apply (R : Rows.Idx → α) (h : Rows.ShapeCasts Emb) (b : Fin 4096) (f : Fin 39) (d : Fin 128)
    (n : Fin 159744) (hn : n.val = b.val * 39 + f.val) :
    shapeCast Emb R h (ix3 b f d) = R (ix2 n d) := by
  refine shapeCast_apply _ h (ix3 b f d) (ix2 n d) ?_
  rw [Shape.rowMajor_val_two, Shape.rowMajor_val_three]
  show n.val * 128 + d.val = (b.val * 39 + f.val) * 128 + d.val
  omega

/-- One sub-vector of 128: entry d of row 39 b + f is entry (b, f, 0, d). -/
theorem rows_of_sub1_apply (g : Sub1.Idx → α) (h : Sub1.ShapeCasts Rows) (b : Fin 4096) (f : Fin 39) (d : Fin 128)
    (n : Fin 159744) (hn : n.val = b.val * 39 + f.val) :
    shapeCast Rows g h (ix2 n d) = g (ix4 b f (0 : Fin 1) d) := by
  refine shapeCast_apply _ h (ix2 n d) (ix4 b f (0 : Fin 1) d) ?_
  rw [Shape.rowMajor_val_two, Shape.rowMajor_val_four]
  show ((b.val * 39 + f.val) * 1 + 0) * 128 + d.val = n.val * 128 + d.val
  omega

theorem emb_of_sub1_apply (g : Sub1.Idx → α) (h : Sub1.ShapeCasts Emb) (b : Fin 4096) (f : Fin 39) (d : Fin 128) :
    shapeCast Emb g h (ix3 b f d) = g (ix4 b f (0 : Fin 1) d) := by
  refine shapeCast_apply _ h (ix3 b f d) (ix4 b f (0 : Fin 1) d) ?_
  rw [Shape.rowMajor_val_three, Shape.rowMajor_val_four]
  show ((b.val * 39 + f.val) * 1 + 0) * 128 + d.val = (b.val * 39 + f.val) * 128 + d.val
  omega

/-- Two sub-vectors of 64: entry d of a row is place d % 64 of sub-vector d / 64. -/
theorem rows_of_sub2_apply (g : Sub2.Idx → α) (h : Sub2.ShapeCasts Rows) (b : Fin 4096) (f : Fin 39) (d : Fin 128)
    (n : Fin 159744) (hn : n.val = b.val * 39 + f.val) :
    shapeCast Rows g h (ix2 n d)
      = g (ix4 b f (⟨d.val / 64, by have := d.isLt; omega⟩ : Fin 2) (⟨d.val % 64, by omega⟩ : Fin 64)) := by
  refine shapeCast_apply _ h (ix2 n d) _ ?_
  rw [Shape.rowMajor_val_two, Shape.rowMajor_val_four]
  show ((b.val * 39 + f.val) * 2 + d.val / 64) * 64 + d.val % 64 = n.val * 128 + d.val
  omega

theorem emb_of_sub2_apply (g : Sub2.Idx → α) (h : Sub2.ShapeCasts Emb) (b : Fin 4096) (f : Fin 39) (d : Fin 128) :
    shapeCast Emb g h (ix3 b f d)
      = g (ix4 b f (⟨d.val / 64, by have := d.isLt; omega⟩ : Fin 2) (⟨d.val % 64, by omega⟩ : Fin 64)) := by
  refine shapeCast_apply _ h (ix3 b f d) _ ?_
  rw [Shape.rowMajor_val_three, Shape.rowMajor_val_four]
  show ((b.val * 39 + f.val) * 2 + d.val / 64) * 64 + d.val % 64 = (b.val * 39 + f.val) * 128 + d.val
  omega

/-- Four sub-vectors of 32: entry d of a row is place d % 32 of sub-vector d / 32. -/
theorem rows_of_sub4_apply (g : Sub4.Idx → α) (h : Sub4.ShapeCasts Rows) (b : Fin 4096) (f : Fin 39) (d : Fin 128)
    (n : Fin 159744) (hn : n.val = b.val * 39 + f.val) :
    shapeCast Rows g h (ix2 n d)
      = g (ix4 b f (⟨d.val / 32, by have := d.isLt; omega⟩ : Fin 4) (⟨d.val % 32, by omega⟩ : Fin 32)) := by
  refine shapeCast_apply _ h (ix2 n d) _ ?_
  rw [Shape.rowMajor_val_two, Shape.rowMajor_val_four]
  show ((b.val * 39 + f.val) * 4 + d.val / 32) * 32 + d.val % 32 = n.val * 128 + d.val
  omega

theorem emb_of_sub4_apply (g : Sub4.Idx → α) (h : Sub4.ShapeCasts Emb) (b : Fin 4096) (f : Fin 39) (d : Fin 128) :
    shapeCast Emb g h (ix3 b f d)
      = g (ix4 b f (⟨d.val / 32, by have := d.isLt; omega⟩ : Fin 4) (⟨d.val % 32, by omega⟩ : Fin 32)) := by
  refine shapeCast_apply _ h (ix3 b f d) _ ?_
  rw [Shape.rowMajor_val_three, Shape.rowMajor_val_four]
  show ((b.val * 39 + f.val) * 4 + d.val / 32) * 32 + d.val % 32 = (b.val * 39 + f.val) * 128 + d.val
  omega

end Layout

/-! ## The row-by-row weighted sum -/

/-- Row by row: g₀·s₀ + g₁·s₁ + … + g₆·s₆, added left to right, each row's weights the token's. -/
def weightedRows (g0 g1 g2 g3 g4 g5 g6 : FVec Ideal Rows .f32) (s0 s1 s2 s3 s4 s5 s6 : FVec Ideal Toks .f32) :
    FVec Ideal Rows .f32 := fun i =>
  g0 i * s0 (ix1 (i 0)) + g1 i * s1 (ix1 (i 0)) + g2 i * s2 (ix1 (i 0)) + g3 i * s3 (ix1 (i 0)) + g4 i * s4 (ix1 (i 0))
    + g5 i * s5 (ix1 (i 0)) + g6 i * s6 (ix1 (i 0))

theorem weightedRows_apply (g0 g1 g2 g3 g4 g5 g6 : FVec Ideal Rows .f32) (s0 s1 s2 s3 s4 s5 s6 : FVec Ideal Toks .f32)
    (n : Fin 159744) (d : Fin 128) :
    weightedRows g0 g1 g2 g3 g4 g5 g6 s0 s1 s2 s3 s4 s5 s6 (ix2 n d)
      = g0 (ix2 n d) * s0 (ix1 n) + g1 (ix2 n d) * s1 (ix1 n) + g2 (ix2 n d) * s2 (ix1 n) + g3 (ix2 n d) * s3 (ix1 n)
        + g4 (ix2 n d) * s4 (ix1 n) + g5 (ix2 n d) * s5 (ix1 n) + g6 (ix2 n d) * s6 (ix1 n) := rfl

/-! ## The two computations are one function -/

/-- One weight per token for column `col`: the column laid along the fields, repeated for every sample, flattened. -/
abbrev tokenWeights (a : FVec Ideal Arch .f32) (col : Nat) (h1 : Arch.Slices ![0, col] Col := by decide) : FVec Ideal Toks .f32 :=
  shapeCast Toks (broadcastInDim Grid ![0, 1] (by decide) (broadcastInDim FldRow ![1] (by decide)
    (shapeCast Fld (extractStridedSlice Col ![0, col] a h1) (by decide)))) (by decide)

theorem tokenWeights_apply (a : FVec Ideal Arch .f32) (col : Nat) (hcol : col < 9) (h1 : Arch.Slices ![0, col] Col)
    (b : Fin 4096) (f : Fin 39) (n : Fin 159744) (hn : n.val = b.val * 39 + f.val) :
    tokenWeights a col h1 (ix1 n) = a (ix2 f ⟨col, hcol⟩) :=
  token_weight_apply a col hcol h1 _ _ _ _ b f n hn

/-- Column `col` laid along the field axis of an array of whole rows, of half rows, of quarter rows. -/
abbrev fieldWeights1 (a : FVec Ideal Arch .f32) (col : Nat) (h1 : Arch.Slices ![0, col] Col := by decide) : FVec Ideal Sub1 .f32 :=
  broadcastInDim Sub1 ![0, 1, 2, 3] (by decide) (broadcastInDim FldAxis ![1] (by decide)
    (shapeCast Fld (extractStridedSlice Col ![0, col] a h1) (by decide)))
abbrev fieldWeights2 (a : FVec Ideal Arch .f32) (col : Nat) (h1 : Arch.Slices ![0, col] Col := by decide) : FVec Ideal Sub2 .f32 :=
  broadcastInDim Sub2 ![0, 1, 2, 3] (by decide) (broadcastInDim FldAxis ![1] (by decide)
    (shapeCast Fld (extractStridedSlice Col ![0, col] a h1) (by decide)))
abbrev fieldWeights4 (a : FVec Ideal Arch .f32) (col : Nat) (h1 : Arch.Slices ![0, col] Col := by decide) : FVec Ideal Sub4 .f32 :=
  broadcastInDim Sub4 ![0, 1, 2, 3] (by decide) (broadcastInDim FldAxis ![1] (by decide)
    (shapeCast Fld (extractStridedSlice Col ![0, col] a h1) (by decide)))

theorem fieldWeights1_apply (a : FVec Ideal Arch .f32) (col : Nat) (hcol : col < 9) (h1 : Arch.Slices ![0, col] Col)
    (b : Fin 4096) (f : Fin 39) (u : Fin 1) (v : Fin 128) :
    fieldWeights1 a col h1 (ix4 b f u v) = a (ix2 f ⟨col, hcol⟩) :=
  field_weight_apply a col hcol h1 _ _ _ b f u v
theorem fieldWeights2_apply (a : FVec Ideal Arch .f32) (col : Nat) (hcol : col < 9) (h1 : Arch.Slices ![0, col] Col)
    (b : Fin 4096) (f : Fin 39) (u : Fin 2) (v : Fin 64) :
    fieldWeights2 a col h1 (ix4 b f u v) = a (ix2 f ⟨col, hcol⟩) :=
  field_weight_apply a col hcol h1 _ _ _ b f u v
theorem fieldWeights4_apply (a : FVec Ideal Arch .f32) (col : Nat) (hcol : col < 9) (h1 : Arch.Slices ![0, col] Col)
    (b : Fin 4096) (f : Fin 39) (u : Fin 4) (v : Fin 32) :
    fieldWeights4 a col h1 (ix4 b f u v) = a (ix2 f ⟨col, hcol⟩) :=
  field_weight_apply a col hcol h1 _ _ _ b f u v

/-- The seven weighted arrays added to zeros, each product regrouped by (sample, field), weight first: the four-axis
    computation. The columns used are 0, 3, 4, 5, 6, 7, 8 of the table. -/
def sumOfWeighted (a : FVec Ideal Arch .f32) (x0 x1 : FVec Ideal Sub1 .f32) (x2 : FVec Ideal Sub2 .f32) (x3 : FVec Ideal Sub4 .f32)
    (x4 : FVec Ideal Sub1 .f32) (x5 : FVec Ideal Sub2 .f32) (x6 : FVec Ideal Sub4 .f32) : FVec Ideal Emb .f32 :=
  addf (addf (addf (addf (addf (addf (addf
    (broadcastInDim Emb ![] (by decide) (constant (F := Ideal) Scalar0 .f32 0x00000000#32))
    (shapeCast Emb (mulf (fieldWeights1 a 0) x0) (by decide)))
    (shapeCast Emb (mulf (fieldWeights1 a 3) x1) (by decide)))
    (shapeCast Emb (mulf (fieldWeights2 a 4) x2) (by decide)))
    (shapeCast Emb (mulf (fieldWeights4 a 5) x3) (by decide)))
    (shapeCast Emb (mulf (fieldWeights1 a 6) x4) (by decide)))
    (shapeCast Emb (mulf (fieldWeights2 a 7) x5) (by decide)))
    (shapeCast Emb (mulf (fieldWeights4 a 8) x6) (by decide))

/-- The row-by-row computation regrouped by (sample, field): the flattened computation. -/
def rowsRegrouped (a : FVec Ideal Arch .f32) (x0 x1 : FVec Ideal Sub1 .f32) (x2 : FVec Ideal Sub2 .f32) (x3 : FVec Ideal Sub4 .f32)
    (x4 : FVec Ideal Sub1 .f32) (x5 : FVec Ideal Sub2 .f32) (x6 : FVec Ideal Sub4 .f32) : FVec Ideal Emb .f32 :=
  shapeCast Emb (weightedRows
    (shapeCast Rows x0 (by decide)) (shapeCast Rows x1 (by decide)) (shapeCast Rows x2 (by decide)) (shapeCast Rows x3 (by decide))
    (shapeCast Rows x4 (by decide)) (shapeCast Rows x5 (by decide)) (shapeCast Rows x6 (by decide))
    (tokenWeights a 0) (tokenWeights a 3) (tokenWeights a 4) (tokenWeights a 5) (tokenWeights a 6) (tokenWeights a 7)
    (tokenWeights a 8)) (by decide)

/-- The flattened computation at entry (b, f, d): array times weight, seven times, left to right. -/
theorem rowsRegrouped_apply (a : FVec Ideal Arch .f32) (x0 x1 : FVec Ideal Sub1 .f32) (x2 : FVec Ideal Sub2 .f32)
    (x3 : FVec Ideal Sub4 .f32) (x4 : FVec Ideal Sub1 .f32) (x5 : FVec Ideal Sub2 .f32) (x6 : FVec Ideal Sub4 .f32)
    (b : Fin 4096) (f : Fin 39) (d : Fin 128) :
    rowsRegrouped a x0 x1 x2 x3 x4 x5 x6 (ix3 b f d)
      = x0 (ix4 b f (0 : Fin 1) d) * a (ix2 f ⟨0, by omega⟩)
        + x1 (ix4 b f (0 : Fin 1) d) * a (ix2 f ⟨3, by omega⟩)
        + x2 (ix4 b f (⟨d.val / 64, by have := d.isLt; omega⟩ : Fin 2) (⟨d.val % 64, by omega⟩ : Fin 64)) * a (ix2 f ⟨4, by omega⟩)
        + x3 (ix4 b f (⟨d.val / 32, by have := d.isLt; omega⟩ : Fin 4) (⟨d.val % 32, by omega⟩ : Fin 32)) * a (ix2 f ⟨5, by omega⟩)
        + x4 (ix4 b f (0 : Fin 1) d) * a (ix2 f ⟨6, by omega⟩)
        + x5 (ix4 b f (⟨d.val / 64, by have := d.isLt; omega⟩ : Fin 2) (⟨d.val % 64, by omega⟩ : Fin 64)) * a (ix2 f ⟨7, by omega⟩)
        + x6 (ix4 b f (⟨d.val / 32, by have := d.isLt; omega⟩ : Fin 4) (⟨d.val % 32, by omega⟩ : Fin 32)) * a (ix2 f ⟨8, by omega⟩) := by
  obtain ⟨n, hn⟩ : ∃ n : Fin 159744, n.val = b.val * 39 + f.val :=
    ⟨⟨b.val * 39 + f.val, by have := b.isLt; have := f.isLt; omega⟩, rfl⟩
  unfold rowsRegrouped
  rw [emb_of_rows_apply _ _ b f d n hn, weightedRows_apply]
  rw [rows_of_sub1_apply x0 _ b f d n hn, rows_of_sub1_apply x1 _ b f d n hn, rows_of_sub2_apply x2 _ b f d n hn,
    rows_of_sub4_apply x3 _ b f d n hn, rows_of_sub1_apply x4 _ b f d n hn, rows_of_sub2_apply x5 _ b f d n hn,
    rows_of_sub4_apply x6 _ b f d n hn]
  rw [tokenWeights_apply a 0 (by omega) _ b f n hn, tokenWeights_apply a 3 (by omega) _ b f n hn,
    tokenWeights_apply a 4 (by omega) _ b f n hn, tokenWeights_apply a 5 (by omega) _ b f n hn,
    tokenWeights_apply a 6 (by omega) _ b f n hn, tokenWeights_apply a 7 (by omega) _ b f n hn,
    tokenWeights_apply a 8 (by omega) _ b f n hn]

/-- The four-axis computation at entry (b, f, d): zero, then weight times array, seven times, left to right. -/
theorem sumOfWeighted_apply (a : FVec Ideal Arch .f32) (x0 x1 : FVec Ideal Sub1 .f32) (x2 : FVec Ideal Sub2 .f32)
    (x3 : FVec Ideal Sub4 .f32) (x4 : FVec Ideal Sub1 .f32) (x5 : FVec Ideal Sub2 .f32) (x6 : FVec Ideal Sub4 .f32)
    (b : Fin 4096) (f : Fin 39) (d : Fin 128) :
    sumOfWeighted a x0 x1 x2 x3 x4 x5 x6 (ix3 b f d)
      = 0 + a (ix2 f ⟨0, by omega⟩) * x0 (ix4 b f (0 : Fin 1) d)
        + a (ix2 f ⟨3, by omega⟩) * x1 (ix4 b f (0 : Fin 1) d)
        + a (ix2 f ⟨4, by omega⟩) * x2 (ix4 b f (⟨d.val / 64, by have := d.isLt; omega⟩ : Fin 2) (⟨d.val % 64, by omega⟩ : Fin 64))
        + a (ix2 f ⟨5, by omega⟩) * x3 (ix4 b f (⟨d.val / 32, by have := d.isLt; omega⟩ : Fin 4) (⟨d.val % 32, by omega⟩ : Fin 32))
        + a (ix2 f ⟨6, by omega⟩) * x4 (ix4 b f (0 : Fin 1) d)
        + a (ix2 f ⟨7, by omega⟩) * x5 (ix4 b f (⟨d.val / 64, by have := d.isLt; omega⟩ : Fin 2) (⟨d.val % 64, by omega⟩ : Fin 64))
        + a (ix2 f ⟨8, by omega⟩) * x6 (ix4 b f (⟨d.val / 32, by have := d.isLt; omega⟩ : Fin 4) (⟨d.val % 32, by omega⟩ : Fin 32)) := by
  unfold sumOfWeighted
  simp only [addf_apply]
  rw [emb_of_sub1_apply _ _ b f d, emb_of_sub1_apply _ _ b f d, emb_of_sub2_apply _ _ b f d, emb_of_sub4_apply _ _ b f d,
    emb_of_sub1_apply _ _ b f d, emb_of_sub2_apply _ _ b f d, emb_of_sub4_apply _ _ b f d]
  simp only [mulf_apply]
  rw [fieldWeights1_apply a 0 (by omega), fieldWeights1_apply a 3 (by omega), fieldWeights2_apply a 4 (by omega),
    fieldWeights4_apply a 5 (by omega), fieldWeights1_apply a 6 (by omega), fieldWeights2_apply a 7 (by omega),
    fieldWeights4_apply a 8 (by omega), broadcastInDim_scalar_apply, constant_apply, Ideal.ofBits_zero_f32]

/-- Entry by entry the two are  x₀·w₀ + x₁·w₃ + … + x₆·w₈  and  0 + w₀·x₀ + w₃·x₁ + … + w₈·x₆  at the same entries of the
    arrays and of the table. -/
theorem rowsRegrouped_eq_sumOfWeighted (a : FVec Ideal Arch .f32) (x0 x1 : FVec Ideal Sub1 .f32) (x2 : FVec Ideal Sub2 .f32)
    (x3 : FVec Ideal Sub4 .f32) (x4 : FVec Ideal Sub1 .f32) (x5 : FVec Ideal Sub2 .f32) (x6 : FVec Ideal Sub4 .f32) :
    rowsRegrouped a x0 x1 x2 x3 x4 x5 x6 = sumOfWeighted a x0 x1 x2 x3 x4 x5 x6 := by
  funext i
  obtain ⟨b, f, d, rfl⟩ : ∃ (b : Fin 4096) (f : Fin 39) (d : Fin 128), i = ix3 b f d := ⟨i 0, i 1, i 2, eq_ix3 i⟩
  rw [rowsRegrouped_apply a x0 x1 x2 x3 x4 x5 x6 b f d, sumOfWeighted_apply a x0 x1 x2 x3 x4 x5 x6 b f d, zero_add,
    mul_comm (a _) (x0 _), mul_comm (a _) (x1 _), mul_comm (a _) (x2 _), mul_comm (a _) (x3 _), mul_comm (a _) (x4 _),
    mul_comm (a _) (x5 _), mul_comm (a _) (x6 _)]

end Cert.WeightedRows

end
-- ==== Proof.BodyValue.lean ====
/-
  What one grid point's body leaves in the output block, entry by entry.

  A point holds 2048 tokens. The body loads seven blocks of 2048 rows of 128 and seven vectors of 2048 weights, lays
  each weight vector down a column and repeats it across the 128 places of a row, multiplies block by block and adds
  the seven products left to right. So entry (p, q) of what it stores is
      x₀(p,q)·w₀(p) + x₁(p,q)·w₁(p) + … + x₆(p,q)·w₆(p).
-/
import proofs.«180089_j40759239639135_2_alg».proof.Proof.Gen.KernelIdeal.Frame
import Idealize.ShloMosaic.PureOps.Ideal
import Idealize.ShloMosaic.Lib.ValueIdx
import Idealize.ShloMosaic.Lib.Pipeline.Value

noncomputable section

namespace Cert.KernelIdeal.BodyValue

open Idealize.ShloMosaic Idealize.ShloMosaic.ValueIdx Cert.KernelIdeal Cert.KernelIdeal.Gen

theorem origin2 : (![0, 0] : Fin 2 → Nat) = fun _ => 0 := funext fun a => by fin_cases a <;> rfl
theorem origin1 : (![0] : Fin 1 → Nat) = fun _ => 0 := funext fun a => by fin_cases a; rfl

/-- A vector of 2048 weights laid down a column and repeated across a row of 128: entry (p, q) is weight p. -/
theorem weights_across_apply (w : Vec Ideal S2048 .f32) (p : Fin 2048) (q : Fin 128) :
    broadcastTo S2048x128 (shapeCast S2048x1 (shapeCast S2048 w shapeCasts_S2048_S2048) shapeCasts_S2048_S2048x1)
      broadcasts_S2048x1_S2048x128 (ix2 p q) = w (ix1 p) := by
  rw [shapeCast_self]
  refine (broadcastTo_apply _ broadcasts_S2048x1_S2048x128 (ix2 p q) (ix2 p (0 : Fin 1)) (fun x => ?_)).trans ?_
  · match x with
    | ⟨0, _⟩ => rfl
    | ⟨1, _⟩ => rfl
  refine shapeCast_apply _ shapeCasts_S2048_S2048x1 (ix2 p (0 : Fin 1)) (ix1 p) ?_
  rw [Shape.rowMajor_val_one, Shape.rowMajor_val_two]
  show p.val = p.val * 1 + 0
  omega

/-- The stored block at entry (p, q). -/
theorem stored_apply (x0 x1 x2 x3 x4 x5 x6 : Vec Ideal S2048x128 .f32) (w0 w1 w2 w3 w4 w5 w6 : Vec Ideal S2048 .f32)
    (p : Fin 2048) (q : Fin 128) :
    out0_14 (F := Ideal) x0 x1 x2 x3 x4 x5 x6 w0 w1 w2 w3 w4 w5 w6 (ix2 p q)
      = x0 (ix2 p q) * w0 (ix1 p) + x1 (ix2 p q) * w1 (ix1 p) + x2 (ix2 p q) * w2 (ix1 p) + x3 (ix2 p q) * w3 (ix1 p)
        + x4 (ix2 p q) * w4 (ix1 p) + x5 (ix2 p q) * w5 (ix1 p) + x6 (ix2 p q) * w6 (ix1 p) := by
  unfold out0_14
  rw [View.canon_unit_zero origin2]
  simp only [View.ld_unit_zero (S := S2048x128) origin2, View.ld_unit_zero (S := S2048) origin1]
  unfold k0_pay1 k0_pay2 k0_pay3
  simp only [shapeCast_self (s := S2048x128), addf_apply, mulf_apply]
  rw [weights_across_apply w0 p q, weights_across_apply w1 p q, weights_across_apply w2 p q, weights_across_apply w3 p q,
    weights_across_apply w4 p q, weights_across_apply w5 p q, weights_across_apply w6 p q]

end Cert.KernelIdeal.BodyValue

end
-- ==== Proof.RegionValue.lean ====
/-
  The array the region leaves: the row-by-row weighted sum of the arrays it finds.

  The 159744 tokens are cut into 78 consecutive blocks of 2048; grid point t reads rows 2048 t … 2048 t + 2047 of each
  of the seven row arrays, the same stretch of each of the seven weight vectors, and writes back the same rows of the
  output. Row r of the output is therefore written by point r / 2048, from row r of every input and weight r of every
  weight vector: block t of the output is block t of ONE function of the whole arrays, and the 78 blocks tile the
  output, so the output ends as that function everywhere.
-/
import proofs.«180089_j40759239639135_2_alg».proof.Proof.Gen.KernelIdeal.Frame
import proofs.«180089_j40759239639135_2_alg».proof.Proof.WeightedRows
import proofs.«180089_j40759239639135_2_alg».proof.Proof.BodyValue
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen Cert.WeightedRows

/-- Every window's block at point t starts at row 2048 t (and, for the row arrays and the output, at place 0). -/
theorem block_starts : ∀ t : Fin cfg0.N,
    win0_14.index t (0 : Fin 2) = t.val ∧ win0_14.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 1) = t.val ∧ win0_8.index t (0 : Fin 1) = t.val ∧ win0_9.index t (0 : Fin 1) = t.val
    ∧ win0_10.index t (0 : Fin 1) = t.val ∧ win0_11.index t (0 : Fin 1) = t.val ∧ win0_12.index t (0 : Fin 1) = t.val
    ∧ win0_13.index t (0 : Fin 1) = t.val :=
  (by decide +kernel : ∀ t : Fin grid0.N, _)

/-- The body's block at any entry j, over the blocks it is handed. -/
theorem stored_at (x0 x1 x2 x3 x4 x5 x6 : Vec Ideal S2048x128 .f32) (w0 w1 w2 w3 w4 w5 w6 : Vec Ideal S2048 .f32)
    (j : S2048x128.Idx) :
    out0_14 (F := Ideal) x0 x1 x2 x3 x4 x5 x6 w0 w1 w2 w3 w4 w5 w6 j
      = x0 j * w0 (ix1 (j 0)) + x1 j * w1 (ix1 (j 0)) + x2 j * w2 (ix1 (j 0)) + x3 j * w3 (ix1 (j 0))
        + x4 j * w4 (ix1 (j 0)) + x5 j * w5 (ix1 (j 0)) + x6 j * w6 (ix1 (j 0)) := by
  obtain ⟨p, q, rfl⟩ : ∃ (p : Fin 2048) (q : Fin 128), j = ix2 p q := ⟨j 0, j 1, eq_ix2 j⟩
  exact BodyValue.stored_apply x0 x1 x2 x3 x4 x5 x6 w0 w1 w2 w3 w4 w5 w6 p q

/-- Row j of window k's block at point t is the same row of the arrays as row j of the output's block at t (k = 0 … 6). -/
theorem row_block_0 (t : Fin cfg0.N) (j : S2048x128.Idx) :
    ((cfg0.win 0).blk t).view.emb j = ((cfg0.win 14).blk t).view.emb j := by
  obtain ⟨e14, z14, e0, z0, e1, z1, e2, z2, e3, z3, e4, z4, e5, z5, e6, z6, -⟩ := block_starts t
  have hj0 : (j 0).val < 2048 := (j 0).isLt
  have hj1 : (j 1).val < 128 := (j 1).isLt
  funext a; apply Fin.ext
  match a with
  | ⟨0, _⟩ => show win0_0.index t (0 : Fin 2) * 2048 + 1 * (j 0).val = win0_14.index t (0 : Fin 2) * 2048 + 1 * (j 0).val; omega
  | ⟨1, _⟩ => show win0_0.index t (1 : Fin 2) * 128 + 1 * (j 1).val = win0_14.index t (1 : Fin 2) * 128 + 1 * (j 1).val; omega

theorem row_block_1 (t : Fin cfg0.N) (j : S2048x128.Idx) :
    ((cfg0.win 1).blk t).view.emb j = ((cfg0.win 14).blk t).view.emb j := by
  obtain ⟨e14, z14, e0, z0, e1, z1, e2, z2, e3, z3, e4, z4, e5, z5, e6, z6, -⟩ := block_starts t
  have hj0 : (j 0).val < 2048 := (j 0).isLt
  have hj1 : (j 1).val < 128 := (j 1).isLt
  funext a; apply Fin.ext
  match a with
  | ⟨0, _⟩ => show win0_1.index t (0 : Fin 2) * 2048 + 1 * (j 0).val = win0_14.index t (0 : Fin 2) * 2048 + 1 * (j 0).val; omega
  | ⟨1, _⟩ => show win0_1.index t (1 : Fin 2) * 128 + 1 * (j 1).val = win0_14.index t (1 : Fin 2) * 128 + 1 * (j 1).val; omega

theorem row_block_2 (t : Fin cfg0.N) (j : S2048x128.Idx) :
    ((cfg0.win 2).blk t).view.emb j = ((cfg0.win 14).blk t).view.emb j := by
  obtain ⟨e14, z14, e0, z0, e1, z1, e2, z2, e3, z3, e4, z4, e5, z5, e6, z6, -⟩ := block_starts t
  have hj0 : (j 0).val < 2048 := (j 0).isLt
  have hj1 : (j 1).val < 128 := (j 1).isLt
  funext a; apply Fin.ext
  match a with
  | ⟨0, _⟩ => show win0_2.index t (0 : Fin 2) * 2048 + 1 * (j 0).val = win0_14.index t (0 : Fin 2) * 2048 + 1 * (j 0).val; omega
  | ⟨1, _⟩ => show win0_2.index t (1 : Fin 2) * 128 + 1 * (j 1).val = win0_14.index t (1 : Fin 2) * 128 + 1 * (j 1).val; omega

theorem row_block_3 (t : Fin cfg0.N) (j : S2048x128.Idx) :
    ((cfg0.win 3).blk t).view.emb j = ((cfg0.win 14).blk t).view.emb j := by
  obtain ⟨e14, z14, e0, z0, e1, z1, e2, z2, e3, z3, e4, z4, e5, z5, e6, z6, -⟩ := block_starts t
  have hj0 : (j 0).val < 2048 := (j 0).isLt
  have hj1 : (j 1).val < 128 := (j 1).isLt
  funext a; apply Fin.ext
  match a with
  | ⟨0, _⟩ => show win0_3.index t (0 : Fin 2) * 2048 + 1 * (j 0).val = win0_14.index t (0 : Fin 2) * 2048 + 1 * (j 0).val; omega
  | ⟨1, _⟩ => show win0_3.index t (1 : Fin 2) * 128 + 1 * (j 1).val = win0_14.index t (1 : Fin 2) * 128 + 1 * (j 1).val; omega

theorem row_block_4 (t : Fin cfg0.N) (j : S2048x128.Idx) :
    ((cfg0.win 4).blk t).view.emb j = ((cfg0.win 14).blk t).view.emb j := by
  obtain ⟨e14, z14, e0, z0, e1, z1, e2, z2, e3, z3, e4, z4, e5, z5, e6, z6, -⟩ := block_starts t
  have hj0 : (j 0).val < 2048 := (j 0).isLt
  have hj1 : (j 1).val < 128 := (j 1).isLt
  funext a; apply Fin.ext
  match a with
  | ⟨0, _⟩ => show win0_4.index t (0 : Fin 2) * 2048 + 1 * (j 0).val = win0_14.index t (0 : Fin 2) * 2048 + 1 * (j 0).val; omega
  | ⟨1, _⟩ => show win0_4.index t (1 : Fin 2) * 128 + 1 * (j 1).val = win0_14.index t (1 : Fin 2) * 128 + 1 * (j 1).val; omega

theorem row_block_5 (t : Fin cfg0.N) (j : S2048x128.Idx) :
    ((cfg0.win 5).blk t).view.emb j = ((cfg0.win 14).blk t).view.emb j := by
  obtain ⟨e14, z14, e0, z0, e1, z1, e2, z2, e3, z3, e4, z4, e5, z5, e6, z6, -⟩ := block_starts t
  have hj0 : (j 0).val < 2048 := (j 0).isLt
  have hj1 : (j 1).val < 128 := (j 1).isLt
  funext a; apply Fin.ext
  match a with
  | ⟨0, _⟩ => show win0_5.index t (0 : Fin 2) * 2048 + 1 * (j 0).val = win0_14.index t (0 : Fin 2) * 2048 + 1 * (j 0).val; omega
  | ⟨1, _⟩ => show win0_5.index t (1 : Fin 2) * 128 + 1 * (j 1).val = win0_14.index t (1 : Fin 2) * 128 + 1 * (j 1).val; omega

theorem row_block_6 (t : Fin cfg0.N) (j : S2048x128.Idx) :
    ((cfg0.win 6).blk t).view.emb j = ((cfg0.win 14).blk t).view.emb j := by
  obtain ⟨e14, z14, e0, z0, e1, z1, e2, z2, e3, z3, e4, z4, e5, z5, e6, z6, -⟩ := block_starts t
  have hj0 : (j 0).val < 2048 := (j 0).isLt
  have hj1 : (j 1).val < 128 := (j 1).isLt
  funext a; apply Fin.ext
  match a with
  | ⟨0, _⟩ => show win0_6.index t (0 : Fin 2) * 2048 + 1 * (j 0).val = win0_14.index t (0 : Fin 2) * 2048 + 1 * (j 0).val; omega
  | ⟨1, _⟩ => show win0_6.index t (1 : Fin 2) * 128 + 1 * (j 1).val = win0_14.index t (1 : Fin 2) * 128 + 1 * (j 1).val; omega

/-- Weight (row of j) of window k's block at point t is the weight of that same row of the arrays (k = 7 … 13). -/
theorem weight_block_7 (t : Fin cfg0.N) (j : S2048x128.Idx) :
    ((cfg0.win 7).blk t).view.emb (ix1 (j 0)) = ix1 ((((cfg0.win 14).blk t).view.emb j) 0) := by
  obtain ⟨e14, z14, e0, z0, e1, z1, e2, z2, e3, z3, e4, z4, e5, z5, e6, z6, e7, e8, e9, e10, e11, e12, e13⟩ := block_starts t
  have hj0 : (j 0).val < 2048 := (j 0).isLt
  funext a; apply Fin.ext
  match a with
  | ⟨0, _⟩ => show win0_7.index t (0 : Fin 1) * 2048 + 1 * (j 0).val = win0_14.index t (0 : Fin 2) * 2048 + 1 * (j 0).val; omega

theorem weight_block_8 (t : Fin cfg0.N) (j : S2048x128.Idx) :
    ((cfg0.win 8).blk t).view.emb (ix1 (j 0)) = ix1 ((((cfg0.win 14).blk t).view.emb j) 0) := by
  obtain ⟨e14, z14, e0, z0, e1, z1, e2, z2, e3, z3, e4, z4, e5, z5, e6, z6, e7, e8, e9, e10, e11, e12, e13⟩ := block_starts t
  have hj0 : (j 0).val < 2048 := (j 0).isLt
  funext a; apply Fin.ext
  match a with
  | ⟨0, _⟩ => show win0_8.index t (0 : Fin 1) * 2048 + 1 * (j 0).val = win0_14.index t (0 : Fin 2) * 2048 + 1 * (j 0).val; omega

theorem weight_block_9 (t : Fin cfg0.N) (j : S2048x128.Idx) :
    ((cfg0.win 9).blk t).view.emb (ix1 (j 0)) = ix1 ((((cfg0.win 14).blk t).view.emb j) 0) := by
  obtain ⟨e14, z14, e0, z0, e1, z1, e2, z2, e3, z3, e4, z4, e5, z5, e6, z6, e7, e8, e9, e10, e11, e12, e13⟩ := block_starts t
  have hj0 : (j 0).val < 2048 := (j 0).isLt
  funext a; apply Fin.ext
  match a with
  | ⟨0, _⟩ => show win0_9.index t (0 : Fin 1) * 2048 + 1 * (j 0).val = win0_14.index t (0 : Fin 2) * 2048 + 1 * (j 0).val; omega

theorem weight_block_10 (t : Fin cfg0.N) (j : S2048x128.Idx) :
    ((cfg0.win 10).blk t).view.emb (ix1 (j 0)) = ix1 ((((cfg0.win 14).blk t).view.emb j) 0) := by
  obtain ⟨e14, z14, e0, z0, e1, z1, e2, z2, e3, z3, e4, z4, e5, z5, e6, z6, e7, e8, e9, e10, e11, e12, e13⟩ := block_starts t
  have hj0 : (j 0).val < 2048 := (j 0).isLt
  funext a; apply Fin.ext
  match a with
  | ⟨0, _⟩ => show win0_10.index t (0 : Fin 1) * 2048 + 1 * (j 0).val = win0_14.index t (0 : Fin 2) * 2048 + 1 * (j 0).val; omega

theorem weight_block_11 (t : Fin cfg0.N) (j : S2048x128.Idx) :
    ((cfg0.win 11).blk t).view.emb (ix1 (j 0)) = ix1 ((((cfg0.win 14).blk t).view.emb j) 0) := by
  obtain ⟨e14, z14, e0, z0, e1, z1, e2, z2, e3, z3, e4, z4, e5, z5, e6, z6, e7, e8, e9, e10, e11, e12, e13⟩ := block_starts t
  have hj0 : (j 0).val < 2048 := (j 0).isLt
  funext a; apply Fin.ext
  match a with
  | ⟨0, _⟩ => show win0_11.index t (0 : Fin 1) * 2048 + 1 * (j 0).val = win0_14.index t (0 : Fin 2) * 2048 + 1 * (j 0).val; omega

theorem weight_block_12 (t : Fin cfg0.N) (j : S2048x128.Idx) :
    ((cfg0.win 12).blk t).view.emb (ix1 (j 0)) = ix1 ((((cfg0.win 14).blk t).view.emb j) 0) := by
  obtain ⟨e14, z14, e0, z0, e1, z1, e2, z2, e3, z3, e4, z4, e5, z5, e6, z6, e7, e8, e9, e10, e11, e12, e13⟩ := block_starts t
  have hj0 : (j 0).val < 2048 := (j 0).isLt
  funext a; apply Fin.ext
  match a with
  | ⟨0, _⟩ => show win0_12.index t (0 : Fin 1) * 2048 + 1 * (j 0).val = win0_14.index t (0 : Fin 2) * 2048 + 1 * (j 0).val; omega

theorem weight_block_13 (t : Fin cfg0.N) (j : S2048x128.Idx) :
    ((cfg0.win 13).blk t).view.emb (ix1 (j 0)) = ix1 ((((cfg0.win 14).blk t).view.emb j) 0) := by
  obtain ⟨e14, z14, e0, z0, e1, z1, e2, z2, e3, z3, e4, z4, e5, z5, e6, z6, e7, e8, e9, e10, e11, e12, e13⟩ := block_starts t
  have hj0 : (j 0).val < 2048 := (j 0).isLt
  funext a; apply Fin.ext
  match a with
  | ⟨0, _⟩ => show win0_13.index t (0 : Fin 1) * 2048 + 1 * (j 0).val = win0_14.index t (0 : Fin 2) * 2048 + 1 * (j 0).val; omega

/-- For ANY seven row arrays and seven weight vectors: what the body leaves at point t, from their blocks at t, is
    block t of their row-by-row weighted sum. -/
theorem block_eq (A0 A1 A2 A3 A4 A5 A6 : FVec Ideal Rows .f32) (B0 B1 B2 B3 B4 B5 B6 : FVec Ideal Toks .f32) (t : Fin cfg0.N) :
    (cfg0.win 14).cut (grid0.coords t)
      (out0_14 (F := Ideal)
        (((cfg0.win 0).blk t).view.read (Elt Ideal) A0)
        (((cfg0.win 1).blk t).view.read (Elt Ideal) A1)
        (((cfg0.win 2).blk t).view.read (Elt Ideal) A2)
        (((cfg0.win 3).blk t).view.read (Elt Ideal) A3)
        (((cfg0.win 4).blk t).view.read (Elt Ideal) A4)
        (((cfg0.win 5).blk t).view.read (Elt Ideal) A5)
        (((cfg0.win 6).blk t).view.read (Elt Ideal) A6)
        (((cfg0.win 7).blk t).view.read (Elt Ideal) B0)
        (((cfg0.win 8).blk t).view.read (Elt Ideal) B1)
        (((cfg0.win 9).blk t).view.read (Elt Ideal) B2)
        (((cfg0.win 10).blk t).view.read (Elt Ideal) B3)
        (((cfg0.win 11).blk t).view.read (Elt Ideal) B4)
        (((cfg0.win 12).blk t).view.read (Elt Ideal) B5)
        (((cfg0.win 13).blk t).view.read (Elt Ideal) B6))
    = ((cfg0.win 14).blk t).view.read (Elt Ideal) (weightedRows A0 A1 A2 A3 A4 A5 A6 B0 B1 B2 B3 B4 B5 B6) := by
  funext j
  show out0_14 (F := Ideal)
        (((cfg0.win 0).blk t).view.read (Elt Ideal) A0)
        (((cfg0.win 1).blk t).view.read (Elt Ideal) A1)
        (((cfg0.win 2).blk t).view.read (Elt Ideal) A2)
        (((cfg0.win 3).blk t).view.read (Elt Ideal) A3)
        (((cfg0.win 4).blk t).view.read (Elt Ideal) A4)
        (((cfg0.win 5).blk t).view.read (Elt Ideal) A5)
        (((cfg0.win 6).blk t).view.read (Elt Ideal) A6)
        (((cfg0.win 7).blk t).view.read (Elt Ideal) B0)
        (((cfg0.win 8).blk t).view.read (Elt Ideal) B1)
        (((cfg0.win 9).blk t).view.read (Elt Ideal) B2)
        (((cfg0.win 10).blk t).view.read (Elt Ideal) B3)
        (((cfg0.win 11).blk t).view.read (Elt Ideal) B4)
        (((cfg0.win 12).blk t).view.read (Elt Ideal) B5)
        (((cfg0.win 13).blk t).view.read (Elt Ideal) B6) j
    = weightedRows A0 A1 A2 A3 A4 A5 A6 B0 B1 B2 B3 B4 B5 B6 (((cfg0.win 14).blk t).view.emb j)
  refine (stored_at _ _ _ _ _ _ _ _ _ _ _ _ _ _ j).trans ?_
  show A0 (((cfg0.win 0).blk t).view.emb j) * B0 (((cfg0.win 7).blk t).view.emb (ix1 (j 0)))
      + A1 (((cfg0.win 1).blk t).view.emb j) * B1 (((cfg0.win 8).blk t).view.emb (ix1 (j 0)))
      + A2 (((cfg0.win 2).blk t).view.emb j) * B2 (((cfg0.win 9).blk t).view.emb (ix1 (j 0)))
      + A3 (((cfg0.win 3).blk t).view.emb j) * B3 (((cfg0.win 10).blk t).view.emb (ix1 (j 0)))
      + A4 (((cfg0.win 4).blk t).view.emb j) * B4 (((cfg0.win 11).blk t).view.emb (ix1 (j 0)))
      + A5 (((cfg0.win 5).blk t).view.emb j) * B5 (((cfg0.win 12).blk t).view.emb (ix1 (j 0)))
      + A6 (((cfg0.win 6).blk t).view.emb j) * B6 (((cfg0.win 13).blk t).view.emb (ix1 (j 0)))
    = A0 (((cfg0.win 14).blk t).view.emb j) * B0 (ix1 ((((cfg0.win 14).blk t).view.emb j) 0))
      + A1 (((cfg0.win 14).blk t).view.emb j) * B1 (ix1 ((((cfg0.win 14).blk t).view.emb j) 0))
      + A2 (((cfg0.win 14).blk t).view.emb j) * B2 (ix1 ((((cfg0.win 14).blk t).view.emb j) 0))
      + A3 (((cfg0.win 14).blk t).view.emb j) * B3 (ix1 ((((cfg0.win 14).blk t).view.emb j) 0))
      + A4 (((cfg0.win 14).blk t).view.emb j) * B4 (ix1 ((((cfg0.win 14).blk t).view.emb j) 0))
      + A5 (((cfg0.win 14).blk t).view.emb j) * B5 (ix1 ((((cfg0.win 14).blk t).view.emb j) 0))
      + A6 (((cfg0.win 14).blk t).view.emb j) * B6 (ix1 ((((cfg0.win 14).blk t).view.emb j) 0))
  rw [row_block_0 t j, row_block_1 t j, row_block_2 t j, row_block_3 t j, row_block_4 t j, row_block_5 t j, row_block_6 t j,
    weight_block_7 t j, weight_block_8 t j, weight_block_9 t j, weight_block_10 t j, weight_block_11 t j, weight_block_12 t j,
    weight_block_13 t j]
  rfl

variable (m : (ℓ : Loc nD τ sig) → Buf (Elt Ideal) ℓ)

/-- The seven row arrays and the seven weight vectors the region finds, at their plain types. -/
abbrev rowArr0 (c : Dev nD) : FVec Ideal Rows .f32 := V m c (Pipeline.arrRef spec0 (0 : Fin cfg0.W))
abbrev rowArr1 (c : Dev nD) : FVec Ideal Rows .f32 := V m c (Pipeline.arrRef spec0 (1 : Fin cfg0.W))
abbrev rowArr2 (c : Dev nD) : FVec Ideal Rows .f32 := V m c (Pipeline.arrRef spec0 (2 : Fin cfg0.W))
abbrev rowArr3 (c : Dev nD) : FVec Ideal Rows .f32 := V m c (Pipeline.arrRef spec0 (3 : Fin cfg0.W))
abbrev rowArr4 (c : Dev nD) : FVec Ideal Rows .f32 := V m c (Pipeline.arrRef spec0 (4 : Fin cfg0.W))
abbrev rowArr5 (c : Dev nD) : FVec Ideal Rows .f32 := V m c (Pipeline.arrRef spec0 (5 : Fin cfg0.W))
abbrev rowArr6 (c : Dev nD) : FVec Ideal Rows .f32 := V m c (Pipeline.arrRef spec0 (6 : Fin cfg0.W))
abbrev wtVec0 (c : Dev nD) : FVec Ideal Toks .f32 := V m c (Pipeline.arrRef spec0 (7 : Fin cfg0.W))
abbrev wtVec1 (c : Dev nD) : FVec Ideal Toks .f32 := V m c (Pipeline.arrRef spec0 (8 : Fin cfg0.W))
abbrev wtVec2 (c : Dev nD) : FVec Ideal Toks .f32 := V m c (Pipeline.arrRef spec0 (9 : Fin cfg0.W))
abbrev wtVec3 (c : Dev nD) : FVec Ideal Toks .f32 := V m c (Pipeline.arrRef spec0 (10 : Fin cfg0.W))
abbrev wtVec4 (c : Dev nD) : FVec Ideal Toks .f32 := V m c (Pipeline.arrRef spec0 (11 : Fin cfg0.W))
abbrev wtVec5 (c : Dev nD) : FVec Ideal Toks .f32 := V m c (Pipeline.arrRef spec0 (12 : Fin cfg0.W))
abbrev wtVec6 (c : Dev nD) : FVec Ideal Toks .f32 := V m c (Pipeline.arrRef spec0 (13 : Fin cfg0.W))

/-- The row-by-row weighted sum of the seven row arrays and seven weight vectors as the region finds them. -/
abbrev rowsOut (c : Dev nD) : FVec Ideal Rows .f32 :=
  weightedRows (rowArr0 m c) (rowArr1 m c) (rowArr2 m c) (rowArr3 m c) (rowArr4 m c) (rowArr5 m c) (rowArr6 m c)
    (wtVec0 m c) (wtVec1 m c) (wtVec2 m c) (wtVec3 m c) (wtVec4 m c) (wtVec5 m c) (wtVec6 m c)

/-- What point t writes back is block t of `rowsOut`. -/
theorem flushed_eq (c : Dev nD) (t : Fin cfg0.N) :
    (dats m 0 c).flushed 14 t = ((cfg0.win 14).blk t).view.read (Elt Ideal) (rowsOut m c) := by
  show (cfg0.win 14).cut (grid0.coords t) ((dats m 0 c).after 14 t) = _
  rw [after0_14]
  unfold iblk
  exact block_eq _ _ _ _ _ _ _ _ _ _ _ _ _ _ t

/-- A row index lies in point t's block iff each coordinate lies in the block's range on its axis. -/
theorem mem_blk (t : Fin cfg0.N) (i : S159744x128.Idx) :
    i ∈ ((cfg0.win 14).blk t).view.set ↔ ∀ a : Fin 2, win0_14.index t a * S2048x128.size a ≤ (i a).val
      ∧ (i a).val < win0_14.index t a * S2048x128.size a + S2048x128.size a := by
  show i ∈ ((View.whole main_v223).slice (win0_14.rect t)).set ↔ _
  rw [View.set_slice_whole, Rect.mem_set_unit]
  exact Iff.rfl

/-- Entry (r, q) of the output lies in the block of point r / 2048, which writes back. -/
theorem covered (i : S159744x128.Idx) :
    ∃ t : Fin cfg0.N, (cfg0.win 14).flush t = true ∧ i ∈ ((cfg0.win 14).blk t).view.set := by
  have hi0 : (i 0).val < 159744 := (i 0).isLt
  have hi1 : (i 1).val < 128 := (i 1).isLt
  have hN : cfg0.N = 78 := N_0
  obtain ⟨t, ht⟩ : ∃ t : Fin cfg0.N, t.val = (i 0).val / 2048 := ⟨⟨(i 0).val / 2048, by rw [hN]; omega⟩, rfl⟩
  obtain ⟨e14, z14, -⟩ := block_starts t
  refine ⟨t, flush0_14 t, ?_⟩
  rw [mem_blk]
  intro a
  match a with
  | ⟨0, _⟩ =>
    show win0_14.index t (0 : Fin 2) * 2048 ≤ (i 0).val ∧ (i 0).val < win0_14.index t (0 : Fin 2) * 2048 + 2048
    omega
  | ⟨1, _⟩ =>
    show win0_14.index t (1 : Fin 2) * 128 ≤ (i 1).val ∧ (i 1).val < win0_14.index t (1 : Fin 2) * 128 + 128
    omega

/-- The region's output array after the run. -/
theorem region_out (c : Dev nD) : (dats m 0 c).arrAt 14 cfg0.N = rowsOut m c :=
  (dats m 0 c).arrAt_eq_of_cover 14 (rowsOut m c) (fun t _ => flushed_eq m c t) covered

end Cert.KernelIdeal.RegionValue

end
-- ==== Proof.KernelValue.lean ====
/-
  The idealized kernel's result as one function of what its host lines looked up.

  Before the region the host lines look up, for each of the seven (codebook, index table) pairs, a four-axis array —
  for every sample and field the chosen code word, as 1, 2 or 4 sub-vectors — and flatten it to rows; and they cut a
  column out of the table of weights (argument 1), lay it along the fields, repeat it for every sample and flatten
  it to one weight per token. The region forms the row-by-row weighted sum, and the one host line after it regroups
  the rows by (sample, field). So the result is the flattened computation of the seven looked-up arrays and the table,
  which entry by entry is the four-axis computation (zeros plus weight times array, seven times).
-/
import proofs.«180089_j40759239639135_2_alg».proof.Proof.Gen.KernelIdeal.Frame
import proofs.«180089_j40759239639135_2_alg».proof.Proof.WeightedRows
import proofs.«180089_j40759239639135_2_alg».proof.Proof.RegionValue
import Idealize.ShloMosaic.Lib.StableHlo.Run
import Idealize.ShloMosaic.Lib.Pipeline.FrameSuffix

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.WeightedRows Cert.KernelIdeal.RegionValue

variable (m : (ℓ : Loc nD τ sig) → Buf (Elt Ideal) ℓ)

/-- The seven looked-up arrays, as the host lines before the region leave them. -/
abbrev looked0 (c : Dev nD) : FVec Ideal Sub1 .f32 := V m c main_v30
abbrev looked1 (c : Dev nD) : FVec Ideal Sub1 .f32 := V m c main_v61
abbrev looked2 (c : Dev nD) : FVec Ideal Sub2 .f32 := V m c main_v92
abbrev looked3 (c : Dev nD) : FVec Ideal Sub4 .f32 := V m c main_v123
abbrev looked4 (c : Dev nD) : FVec Ideal Sub1 .f32 := V m c main_v154
abbrev looked5 (c : Dev nD) : FVec Ideal Sub2 .f32 := V m c main_v185
abbrev looked6 (c : Dev nD) : FVec Ideal Sub4 .f32 := V m c main_v216

/-- The table of weights: argument 1 at launch. -/
abbrev table (c : Dev nD) : FVec Ideal Arch .f32 := m ((c : Thread nD τ).loc main_arg1)

/-! ## Each row array is a looked-up array flattened; each weight vector is a column of the table per token -/

set_option maxHeartbeats 4000000 in
theorem rowArr0_eq (c : Dev nD) : rowArr0 m c = shapeCast Rows (looked0 m c) (by decide) := by
  show StableHlo.after hostOps0 (fun b => m (c, b)) (Proc.devRef .tc main_v31)
    = shapeCast Rows (StableHlo.after hostOps0 (fun b => m (c, b)) (Proc.devRef .tc main_v30)) _
  after_results_simp
  rfl

set_option maxHeartbeats 4000000 in
theorem rowArr1_eq (c : Dev nD) : rowArr1 m c = shapeCast Rows (looked1 m c) (by decide) := by
  show StableHlo.after hostOps0 (fun b => m (c, b)) (Proc.devRef .tc main_v62)
    = shapeCast Rows (StableHlo.after hostOps0 (fun b => m (c, b)) (Proc.devRef .tc main_v61)) _
  after_results_simp
  rfl

set_option maxHeartbeats 4000000 in
theorem rowArr2_eq (c : Dev nD) : rowArr2 m c = shapeCast Rows (looked2 m c) (by decide) := by
  show StableHlo.after hostOps0 (fun b => m (c, b)) (Proc.devRef .tc main_v93)
    = shapeCast Rows (StableHlo.after hostOps0 (fun b => m (c, b)) (Proc.devRef .tc main_v92)) _
  after_results_simp
  rfl

set_option maxHeartbeats 4000000 in
theorem rowArr3_eq (c : Dev nD) : rowArr3 m c = shapeCast Rows (looked3 m c) (by decide) := by
  show StableHlo.after hostOps0 (fun b => m (c, b)) (Proc.devRef .tc main_v124)
    = shapeCast Rows (StableHlo.after hostOps0 (fun b => m (c, b)) (Proc.devRef .tc main_v123)) _
  after_results_simp
  rfl

set_option maxHeartbeats 4000000 in
theorem rowArr4_eq (c : Dev nD) : rowArr4 m c = shapeCast Rows (looked4 m c) (by decide) := by
  show StableHlo.after hostOps0 (fun b => m (c, b)) (Proc.devRef .tc main_v155)
    = shapeCast Rows (StableHlo.after hostOps0 (fun b => m (c, b)) (Proc.devRef .tc main_v154)) _
  after_results_simp
  rfl

set_option maxHeartbeats 4000000 in
theorem rowArr5_eq (c : Dev nD) : rowArr5 m c = shapeCast Rows (looked5 m c) (by decide) := by
  show StableHlo.after hostOps0 (fun b => m (c, b)) (Proc.devRef .tc main_v186)
    = shapeCast Rows (StableHlo.after hostOps0 (fun b => m (c, b)) (Proc.devRef .tc main_v185)) _
  after_results_simp
  rfl

set_option maxHeartbeats 4000000 in
theorem rowArr6_eq (c : Dev nD) : rowArr6 m c = shapeCast Rows (looked6 m c) (by decide) := by
  show StableHlo.after hostOps0 (fun b => m (c, b)) (Proc.devRef .tc main_v217)
    = shapeCast Rows (StableHlo.after hostOps0 (fun b => m (c, b)) (Proc.devRef .tc main_v216)) _
  after_results_simp
  rfl

set_option maxHeartbeats 4000000 in
theorem wtVec0_eq (c : Dev nD) : wtVec0 m c = tokenWeights (table m c) 0 := by
  show StableHlo.after hostOps0 (fun b => m (c, b)) (Proc.devRef .tc main_v36) = _
  after_results_simp
  rfl

set_option maxHeartbeats 4000000 in
theorem wtVec1_eq (c : Dev nD) : wtVec1 m c = tokenWeights (table m c) 3 := by
  show StableHlo.after hostOps0 (fun b => m (c, b)) (Proc.devRef .tc main_v67) = _
  after_results_simp
  rfl

set_option maxHeartbeats 4000000 in
theorem wtVec2_eq (c : Dev nD) : wtVec2 m c = tokenWeights (table m c) 4 := by
  show StableHlo.after hostOps0 (fun b => m (c, b)) (Proc.devRef .tc main_v98) = _
  after_results_simp
  rfl

set_option maxHeartbeats 4000000 in
theorem wtVec3_eq (c : Dev nD) : wtVec3 m c = tokenWeights (table m c) 5 := by
  show StableHlo.after hostOps0 (fun b => m (c, b)) (Proc.devRef .tc main_v129) = _
  after_results_simp
  rfl

set_option maxHeartbeats 4000000 in
theorem wtVec4_eq (c : Dev nD) : wtVec4 m c = tokenWeights (table m c) 6 := by
  show StableHlo.after hostOps0 (fun b => m (c, b)) (Proc.devRef .tc main_v160) = _
  after_results_simp
  rfl

set_option maxHeartbeats 4000000 in
theorem wtVec5_eq (c : Dev nD) : wtVec5 m c = tokenWeights (table m c) 7 := by
  show StableHlo.after hostOps0 (fun b => m (c, b)) (Proc.devRef .tc main_v191) = _
  after_results_simp
  rfl

set_option maxHeartbeats 4000000 in
theorem wtVec6_eq (c : Dev nD) : wtVec6 m c = tokenWeights (table m c) 8 := by
  show StableHlo.after hostOps0 (fun b => m (c, b)) (Proc.devRef .tc main_v222) = _
  after_results_simp
  rfl

/-! ## The result -/

/-- The kernel's result: the flattened computation of the looked-up arrays and the table. -/
def kernelOut (c : Dev nD) : FVec Ideal Emb .f32 :=
  rowsRegrouped (table m c) (looked0 m c) (looked1 m c) (looked2 m c) (looked3 m c) (looked4 m c) (looked5 m c) (looked6 m c)

/-- The host line after the region regroups the region's output array. -/
theorem tail_eq (c : Dev nD) :
    Pipeline.afterTail₀ cfgs (dats m) 0 (V0 m) [hostOps1] c main_v224 = kernelOut m c := by
  unfold Pipeline.afterTail₀
  show StableHlo.after hostOps1 _ (Proc.devRef .tc main_v224) = _
  after_results
  have hw : Pipeline.withArrays (cfgs 0).spec c (V0 m c) (fun w => (dats m 0 c).arrAt w (cfgs 0).N) (Proc.devRef .tc main_v223)
      = rowsOut m c := (Pipeline.withArrays_arr spec0 launch0.win.arr_inj c _ _ 14).trans (region_out m c)
  rw [hw]
  unfold rowsOut kernelOut rowsRegrouped
  rw [rowArr0_eq, rowArr1_eq, rowArr2_eq, rowArr3_eq, rowArr4_eq, rowArr5_eq, rowArr6_eq,
    wtVec0_eq, wtVec1_eq, wtVec2_eq, wtVec3_eq, wtVec4_eq, wtVec5_eq, wtVec6_eq]
  rfl

/-- Every weakly fair execution of the idealized kernel terminates with its result at the four-axis computation of
    the looked-up arrays and the table, and its arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v224)
        = sumOfWeighted (table m c) (looked0 m c) (looked1 m c) (looked2 m c) (looked3 m c) (looked4 m c) (looked5 m c) (looked6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(((h c).2 main_v224 (Pipeline.mem_restRefs_of main_v224 (by decide) (by decide))).trans
        ((tail_eq m c).trans (by unfold kernelOut; exact rowsRegrouped_eq_sumOfWeighted _ _ _ _ _ _ _ _))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c))⟩)
    (run_main m ρ)

end Cert.KernelIdeal.KernelValue

end
-- ==== Proof.ReferenceValue.lean ====
/-
  The idealized reference's result is the four-axis computation of ITS looked-up arrays and table.

  The reference looks up seven four-axis arrays — for every sample and field the chosen code word, as 1, 2 or 4
  sub-vectors —, multiplies each by its weight column of the table (argument 1) laid along the field axis, regroups
  each product by (sample, field) and adds the seven to zeros, left to right. Its result is therefore the four-axis
  computation of those seven arrays and the table, term for term; the looked-up arrays are named as the buffers the
  host lines leave them in and are never opened.
-/
import proofs.«180089_j40759239639135_2_alg».proof.Proof.Gen.ReferenceIdeal.Run
import proofs.«180089_j40759239639135_2_alg».proof.Proof.WeightedRows
import Idealize.ShloMosaic.Lib.StableHlo.Run

set_option maxRecDepth 16384

noncomputable section

namespace Cert.ReferenceIdeal.RefValue

open Idealize.ShloMosaic Idealize.ShloMosaic.TcCoe Idealize.SL.Sem Idealize.ShloMosaic.StableHlo
open Cert.WeightedRows Cert.ReferenceIdeal Cert.ReferenceIdeal.Value

/-- One weighted, regrouped array depends only on the table and the array (whole rows). -/
theorem weighted1_congr {a a' : FVec Ideal Arch .f32} {x x' : FVec Ideal Sub1 .f32} (col : Nat) (h1 : Arch.Slices ![0, col] Col)
    (ha : a = a') (hx : x = x') :
    shapeCast Emb (mulf (fieldWeights1 a col h1) x) (by decide) = shapeCast Emb (mulf (fieldWeights1 a' col h1) x') (by decide) := by
  subst ha hx; rfl
/-- The same for half rows … -/
theorem weighted2_congr {a a' : FVec Ideal Arch .f32} {x x' : FVec Ideal Sub2 .f32} (col : Nat) (h1 : Arch.Slices ![0, col] Col)
    (ha : a = a') (hx : x = x') :
    shapeCast Emb (mulf (fieldWeights2 a col h1) x) (by decide) = shapeCast Emb (mulf (fieldWeights2 a' col h1) x') (by decide) := by
  subst ha hx; rfl
/-- … and for quarter rows. -/
theorem weighted4_congr {a a' : FVec Ideal Arch .f32} {x x' : FVec Ideal Sub4 .f32} (col : Nat) (h1 : Arch.Slices ![0, col] Col)
    (ha : a = a') (hx : x = x') :
    shapeCast Emb (mulf (fieldWeights4 a col h1) x) (by decide) = shapeCast Emb (mulf (fieldWeights4 a' col h1) x') (by decide) := by
  subst ha hx; rfl

/-- The four-axis computation depends only on the table and the seven arrays. -/
theorem sumOfWeighted_congr {a a' : FVec Ideal Arch .f32} {x0 x0' x1 x1' : FVec Ideal Sub1 .f32} {x2 x2' : FVec Ideal Sub2 .f32}
    {x3 x3' : FVec Ideal Sub4 .f32} {x4 x4' : FVec Ideal Sub1 .f32} {x5 x5' : FVec Ideal Sub2 .f32} {x6 x6' : FVec Ideal Sub4 .f32}
    (ha : a = a') (h0 : x0 = x0') (h1 : x1 = x1') (h2 : x2 = x2') (h3 : x3 = x3') (h4 : x4 = x4') (h5 : x5 = x5') (h6 : x6 = x6') :
    sumOfWeighted a x0 x1 x2 x3 x4 x5 x6 = sumOfWeighted a' x0' x1' x2' x3' x4' x5' x6' := by
  subst ha h0 h1 h2 h3 h4 h5 h6; rfl

variable (V0 : Valuation τ sig (Elt Ideal))

/-- The reference's seven looked-up arrays: the buffers its host lines leave them in. -/
abbrev refLooked0 : FVec Ideal Sub1 .f32 := after (ops (F := Ideal)) V0 (Proc.devRef .tc main_v31)
abbrev refLooked1 : FVec Ideal Sub1 .f32 := after (ops (F := Ideal)) V0 (Proc.devRef .tc main_v63)
abbrev refLooked2 : FVec Ideal Sub2 .f32 := after (ops (F := Ideal)) V0 (Proc.devRef .tc main_v95)
abbrev refLooked3 : FVec Ideal Sub4 .f32 := after (ops (F := Ideal)) V0 (Proc.devRef .tc main_v127)
abbrev refLooked4 : FVec Ideal Sub1 .f32 := after (ops (F := Ideal)) V0 (Proc.devRef .tc main_v159)
abbrev refLooked5 : FVec Ideal Sub2 .f32 := after (ops (F := Ideal)) V0 (Proc.devRef .tc main_v191)
abbrev refLooked6 : FVec Ideal Sub4 .f32 := after (ops (F := Ideal)) V0 (Proc.devRef .tc main_v223)
/-- The reference's table of weights: argument 1. -/
abbrev refTable : FVec Ideal Arch .f32 := V0 (Proc.devRef .tc main_arg1)

set_option maxHeartbeats 8000000 in
/-- The reference's result is the four-axis computation of its own looked-up arrays and table. -/
theorem result_eq :
    val5 V0 (Proc.devRef .tc main_v230)
      = sumOfWeighted (refTable V0) (refLooked0 V0) (refLooked1 V0) (refLooked2 V0) (refLooked3 V0) (refLooked4 V0)
          (refLooked5 V0) (refLooked6 V0) := by
  refine (val5_main_v230 V0).trans ?_
  unfold sumOfWeighted
  simp only [res_main_v134]
  refine congrArg₂ addf (congrArg₂ addf (congrArg₂ addf (congrArg₂ addf (congrArg₂ addf (congrArg₂ addf (congrArg₂ addf rfl
    (weighted1_congr 0 _ rfl ?x0)) (weighted1_congr 3 _ rfl ?x1)) (weighted2_congr 4 _ rfl ?x2)) (weighted4_congr 5 _ rfl ?x3))
    (weighted1_congr 6 _ rfl ?x4)) (weighted2_congr 7 _ rfl ?x5)) (weighted4_congr 8 _ rfl ?x6)
  case x0 =>
    symm
    show after (ops (F := Ideal)) V0 (Proc.devRef .tc main_v31) = _
    simp only [ops, after_append, ops_part0, ops_part1, ops_part2, ops_part3, ops_part4]
    after_results_simp
    simp only [res_main_v5, res_main_v13, res_main_v16, res_main_v45, res_main_v48, res_main_v77, res_main_v80, res_main_v109, res_main_v112, res_main_v141, res_main_v144, res_main_v173, res_main_v176, res_main_v205, res_main_v208]
    rfl
  case x1 =>
    symm
    show after (ops (F := Ideal)) V0 (Proc.devRef .tc main_v63) = _
    simp only [ops, after_append, ops_part0, ops_part1, ops_part2, ops_part3, ops_part4]
    after_results_simp
    simp only [res_main_v5, res_main_v13, res_main_v16, res_main_v45, res_main_v48, res_main_v77, res_main_v80, res_main_v109, res_main_v112, res_main_v141, res_main_v144, res_main_v173, res_main_v176, res_main_v205, res_main_v208]
    rfl
  case x2 =>
    symm
    show after (ops (F := Ideal)) V0 (Proc.devRef .tc main_v95) = _
    simp only [ops, after_append, ops_part0, ops_part1, ops_part2, ops_part3, ops_part4]
    after_results_simp
    simp only [res_main_v5, res_main_v13, res_main_v16, res_main_v45, res_main_v48, res_main_v77, res_main_v80, res_main_v109, res_main_v112, res_main_v141, res_main_v144, res_main_v173, res_main_v176, res_main_v205, res_main_v208]
    rfl
  case x3 =>
    symm
    show after (ops (F := Ideal)) V0 (Proc.devRef .tc main_v127) = _
    simp only [ops, after_append, ops_part0, ops_part1, ops_part2, ops_part3, ops_part4]
    after_results_simp
    simp only [res_main_v5, res_main_v13, res_main_v16, res_main_v45, res_main_v48, res_main_v77, res_main_v80, res_main_v109, res_main_v112, res_main_v141, res_main_v144, res_main_v173, res_main_v176, res_main_v205, res_main_v208]
    rfl
  case x4 =>
    symm
    show after (ops (F := Ideal)) V0 (Proc.devRef .tc main_v159) = _
    simp only [ops, after_append, ops_part0, ops_part1, ops_part2, ops_part3, ops_part4]
    after_results_simp
    simp only [res_main_v5, res_main_v13, res_main_v16, res_main_v45, res_main_v48, res_main_v77, res_main_v80, res_main_v109, res_main_v112, res_main_v141, res_main_v144, res_main_v173, res_main_v176, res_main_v205, res_main_v208]
    rfl
  case x5 =>
    symm
    show after (ops (F := Ideal)) V0 (Proc.devRef .tc main_v191) = _
    simp only [ops, after_append, ops_part0, ops_part1, ops_part2, ops_part3, ops_part4]
    after_results_simp
    simp only [res_main_v5, res_main_v13, res_main_v16, res_main_v45, res_main_v48, res_main_v77, res_main_v80, res_main_v109, res_main_v112, res_main_v141, res_main_v144, res_main_v173, res_main_v176, res_main_v205, res_main_v208]
    rfl
  case x6 =>
    symm
    show after (ops (F := Ideal)) V0 (Proc.devRef .tc main_v223) = _
    simp only [ops, after_append, ops_part0, ops_part1, ops_part2, ops_part3, ops_part4]
    after_results_simp
    simp only [res_main_v5, res_main_v13, res_main_v16, res_main_v45, res_main_v48, res_main_v77, res_main_v80, res_main_v109, res_main_v112, res_main_v141, res_main_v144, res_main_v173, res_main_v176, res_main_v205, res_main_v208]
    rfl

end Cert.ReferenceIdeal.RefValue

end
-- ==== Proof.LookupAgree.lean ====
/-
  From arguments that agree, the two programs look up the same seven arrays.

  Both programs compute each four-axis array by the same host lines: the field's offset 10000 f added to the id,
  a negative sum wrapped by the table's length, the index table read there, a negative entry wrapped by the
  codebook's length, and sub-vector u of the code word read from the codebook regrouped as (row, sub-vector, place).
  Each array depends on three arguments only — the ids, one index table, one codebook — so where those agree the
  arrays are equal: the two sides are the same operations applied to the same arrays, compared as wholes.
-/
import proofs.«180089_j40759239639135_2_alg».proof.Proof.Gen.ReferenceIdeal.Run
import proofs.«180089_j40759239639135_2_alg».proof.Proof.WeightedRows
import proofs.«180089_j40759239639135_2_alg».proof.Proof.KernelValue
import proofs.«180089_j40759239639135_2_alg».proof.Proof.ReferenceValue
import Idealize.ShloMosaic.Lib.StableHlo.Run

set_option maxRecDepth 16384

noncomputable section

namespace Cert.LookupAgree

open Idealize.ShloMosaic Idealize.ShloMosaic.TcCoe Idealize.SL.Sem Idealize.ShloMosaic.StableHlo
open Cert.WeightedRows Cert.KernelIdeal.KernelValue Cert.ReferenceIdeal.RefValue

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

set_option maxHeartbeats 4000000 in
/-- Array 0: ids, index table (argument 3), codebook (argument 2). -/
theorem looked0_agree (hx : @Eq ((⟨Cert.ReferenceIdeal.S4096x39, .i32⟩ : BufTy).Contents (Elt Ideal)) (m' (c, Proc.devRef .tc Cert.ReferenceIdeal.main_arg0)) (m (c, Proc.devRef .tc Cert.KernelIdeal.main_arg0)))
    (hcb : @Eq ((⟨Cert.ReferenceIdeal.S19500x128, .f32⟩ : BufTy).Contents (Elt Ideal)) (m' (c, Proc.devRef .tc Cert.ReferenceIdeal.main_arg2)) (m (c, Proc.devRef .tc Cert.KernelIdeal.main_arg2)))
    (hix : @Eq ((⟨Cert.ReferenceIdeal.S390000x1, .i32⟩ : BufTy).Contents (Elt Ideal)) (m' (c, Proc.devRef .tc Cert.ReferenceIdeal.main_arg3)) (m (c, Proc.devRef .tc Cert.KernelIdeal.main_arg3))) :
    @Eq (FVec Ideal Sub1 .f32) (refLooked0 (launchContents m' c)) (looked0 m c) := by
  show @Eq (FVec Ideal Sub1 .f32)
    (after (Cert.ReferenceIdeal.Value.ops (F := Ideal)) (launchContents m' c) (Proc.devRef .tc Cert.ReferenceIdeal.main_v31))
    (after Cert.KernelIdeal.Gen.hostOps0 (fun b => m (c, b)) (Proc.devRef .tc Cert.KernelIdeal.main_v30))
  simp only [Cert.ReferenceIdeal.Value.ops, after_append, Cert.ReferenceIdeal.Value.ops_part0, Cert.ReferenceIdeal.Value.ops_part1, Cert.ReferenceIdeal.Value.ops_part2,
    Cert.ReferenceIdeal.Value.ops_part3, Cert.ReferenceIdeal.Value.ops_part4]
  after_results_simp
  simp only [launchContents]
  rw [hx, hcb, hix]
  rfl

set_option maxHeartbeats 4000000 in
/-- Array 1: ids, index table (argument 5), codebook (argument 4). -/
theorem looked1_agree (hx : @Eq ((⟨Cert.ReferenceIdeal.S4096x39, .i32⟩ : BufTy).Contents (Elt Ideal)) (m' (c, Proc.devRef .tc Cert.ReferenceIdeal.main_arg0)) (m (c, Proc.devRef .tc Cert.KernelIdeal.main_arg0)))
    (hcb : @Eq ((⟨Cert.ReferenceIdeal.S9984x128, .f32⟩ : BufTy).Contents (Elt Ideal)) (m' (c, Proc.devRef .tc Cert.ReferenceIdeal.main_arg4)) (m (c, Proc.devRef .tc Cert.KernelIdeal.main_arg4)))
    (hix : @Eq ((⟨Cert.ReferenceIdeal.S390000x1, .i32⟩ : BufTy).Contents (Elt Ideal)) (m' (c, Proc.devRef .tc Cert.ReferenceIdeal.main_arg5)) (m (c, Proc.devRef .tc Cert.KernelIdeal.main_arg5))) :
    @Eq (FVec Ideal Sub1 .f32) (refLooked1 (launchContents m' c)) (looked1 m c) := by
  show @Eq (FVec Ideal Sub1 .f32)
    (after (Cert.ReferenceIdeal.Value.ops (F := Ideal)) (launchContents m' c) (Proc.devRef .tc Cert.ReferenceIdeal.main_v63))
    (after Cert.KernelIdeal.Gen.hostOps0 (fun b => m (c, b)) (Proc.devRef .tc Cert.KernelIdeal.main_v61))
  simp only [Cert.ReferenceIdeal.Value.ops, after_append, Cert.ReferenceIdeal.Value.ops_part0, Cert.ReferenceIdeal.Value.ops_part1, Cert.ReferenceIdeal.Value.ops_part2,
    Cert.ReferenceIdeal.Value.ops_part3, Cert.ReferenceIdeal.Value.ops_part4]
  after_results_simp
  simp only [launchContents]
  rw [hx, hcb, hix]
  rfl

set_option maxHeartbeats 4000000 in
/-- Array 2: ids, index table (argument 7), codebook (argument 6). -/
theorem looked2_agree (hx : @Eq ((⟨Cert.ReferenceIdeal.S4096x39, .i32⟩ : BufTy).Contents (Elt Ideal)) (m' (c, Proc.devRef .tc Cert.ReferenceIdeal.main_arg0)) (m (c, Proc.devRef .tc Cert.KernelIdeal.main_arg0)))
    (hcb : @Eq ((⟨Cert.ReferenceIdeal.S9984x128, .f32⟩ : BufTy).Contents (Elt Ideal)) (m' (c, Proc.devRef .tc Cert.ReferenceIdeal.main_arg6)) (m (c, Proc.devRef .tc Cert.KernelIdeal.main_arg6)))
    (hix : @Eq ((⟨Cert.ReferenceIdeal.S390000x2, .i32⟩ : BufTy).Contents (Elt Ideal)) (m' (c, Proc.devRef .tc Cert.ReferenceIdeal.main_arg7)) (m (c, Proc.devRef .tc Cert.KernelIdeal.main_arg7))) :
    @Eq (FVec Ideal Sub2 .f32) (refLooked2 (launchContents m' c)) (looked2 m c) := by
  show @Eq (FVec Ideal Sub2 .f32)
    (after (Cert.ReferenceIdeal.Value.ops (F := Ideal)) (launchContents m' c) (Proc.devRef .tc Cert.ReferenceIdeal.main_v95))
    (after Cert.KernelIdeal.Gen.hostOps0 (fun b => m (c, b)) (Proc.devRef .tc Cert.KernelIdeal.main_v92))
  simp only [Cert.ReferenceIdeal.Value.ops, after_append, Cert.ReferenceIdeal.Value.ops_part0, Cert.ReferenceIdeal.Value.ops_part1, Cert.ReferenceIdeal.Value.ops_part2,
    Cert.ReferenceIdeal.Value.ops_part3, Cert.ReferenceIdeal.Value.ops_part4]
  after_results_simp
  simp only [launchContents]
  rw [hx, hcb, hix]
  rfl

set_option maxHeartbeats 4000000 in
/-- Array 3: ids, index table (argument 9), codebook (argument 8). -/
theorem looked3_agree (hx : @Eq ((⟨Cert.ReferenceIdeal.S4096x39, .i32⟩ : BufTy).Contents (Elt Ideal)) (m' (c, Proc.devRef .tc Cert.ReferenceIdeal.main_arg0)) (m (c, Proc.devRef .tc Cert.KernelIdeal.main_arg0)))
    (hcb : @Eq ((⟨Cert.ReferenceIdeal.S9984x128, .f32⟩ : BufTy).Contents (Elt Ideal)) (m' (c, Proc.devRef .tc Cert.ReferenceIdeal.main_arg8)) (m (c, Proc.devRef .tc Cert.KernelIdeal.main_arg8)))
    (hix : @Eq ((⟨Cert.ReferenceIdeal.S390000x4, .i32⟩ : BufTy).Contents (Elt Ideal)) (m' (c, Proc.devRef .tc Cert.ReferenceIdeal.main_arg9)) (m (c, Proc.devRef .tc Cert.KernelIdeal.main_arg9))) :
    @Eq (FVec Ideal Sub4 .f32) (refLooked3 (launchContents m' c)) (looked3 m c) := by
  show @Eq (FVec Ideal Sub4 .f32)
    (after (Cert.ReferenceIdeal.Value.ops (F := Ideal)) (launchContents m' c) (Proc.devRef .tc Cert.ReferenceIdeal.main_v127))
    (after Cert.KernelIdeal.Gen.hostOps0 (fun b => m (c, b)) (Proc.devRef .tc Cert.KernelIdeal.main_v123))
  simp only [Cert.ReferenceIdeal.Value.ops, after_append, Cert.ReferenceIdeal.Value.ops_part0, Cert.ReferenceIdeal.Value.ops_part1, Cert.ReferenceIdeal.Value.ops_part2,
    Cert.ReferenceIdeal.Value.ops_part3, Cert.ReferenceIdeal.Value.ops_part4]
  after_results_simp
  simp only [launchContents]
  rw [hx, hcb, hix]
  rfl

set_option maxHeartbeats 4000000 in
/-- Array 4: ids, index table (argument 11), codebook (argument 10). -/
theorem looked4_agree (hx : @Eq ((⟨Cert.ReferenceIdeal.S4096x39, .i32⟩ : BufTy).Contents (Elt Ideal)) (m' (c, Proc.devRef .tc Cert.ReferenceIdeal.main_arg0)) (m (c, Proc.devRef .tc Cert.KernelIdeal.main_arg0)))
    (hcb : @Eq ((⟨Cert.ReferenceIdeal.S19968x128, .f32⟩ : BufTy).Contents (Elt Ideal)) (m' (c, Proc.devRef .tc Cert.ReferenceIdeal.main_arg10)) (m (c, Proc.devRef .tc Cert.KernelIdeal.main_arg10)))
    (hix : @Eq ((⟨Cert.ReferenceIdeal.S390000x1, .i32⟩ : BufTy).Contents (Elt Ideal)) (m' (c, Proc.devRef .tc Cert.ReferenceIdeal.main_arg11)) (m (c, Proc.devRef .tc Cert.KernelIdeal.main_arg11))) :
    @Eq (FVec Ideal Sub1 .f32) (refLooked4 (launchContents m' c)) (looked4 m c) := by
  show @Eq (FVec Ideal Sub1 .f32)
    (after (Cert.ReferenceIdeal.Value.ops (F := Ideal)) (launchContents m' c) (Proc.devRef .tc Cert.ReferenceIdeal.main_v159))
    (after Cert.KernelIdeal.Gen.hostOps0 (fun b => m (c, b)) (Proc.devRef .tc Cert.KernelIdeal.main_v154))
  simp only [Cert.ReferenceIdeal.Value.ops, after_append, Cert.ReferenceIdeal.Value.ops_part0, Cert.ReferenceIdeal.Value.ops_part1, Cert.ReferenceIdeal.Value.ops_part2,
    Cert.ReferenceIdeal.Value.ops_part3, Cert.ReferenceIdeal.Value.ops_part4]
  after_results_simp
  simp only [launchContents]
  rw [hx, hcb, hix]
  rfl

set_option maxHeartbeats 4000000 in
/-- Array 5: ids, index table (argument 13), codebook (argument 12). -/
theorem looked5_agree (hx : @Eq ((⟨Cert.ReferenceIdeal.S4096x39, .i32⟩ : BufTy).Contents (Elt Ideal)) (m' (c, Proc.devRef .tc Cert.ReferenceIdeal.main_arg0)) (m (c, Proc.devRef .tc Cert.KernelIdeal.main_arg0)))
    (hcb : @Eq ((⟨Cert.ReferenceIdeal.S19968x128, .f32⟩ : BufTy).Contents (Elt Ideal)) (m' (c, Proc.devRef .tc Cert.ReferenceIdeal.main_arg12)) (m (c, Proc.devRef .tc Cert.KernelIdeal.main_arg12)))
    (hix : @Eq ((⟨Cert.ReferenceIdeal.S390000x2, .i32⟩ : BufTy).Contents (Elt Ideal)) (m' (c, Proc.devRef .tc Cert.ReferenceIdeal.main_arg13)) (m (c, Proc.devRef .tc Cert.KernelIdeal.main_arg13))) :
    @Eq (FVec Ideal Sub2 .f32) (refLooked5 (launchContents m' c)) (looked5 m c) := by
  show @Eq (FVec Ideal Sub2 .f32)
    (after (Cert.ReferenceIdeal.Value.ops (F := Ideal)) (launchContents m' c) (Proc.devRef .tc Cert.ReferenceIdeal.main_v191))
    (after Cert.KernelIdeal.Gen.hostOps0 (fun b => m (c, b)) (Proc.devRef .tc Cert.KernelIdeal.main_v185))
  simp only [Cert.ReferenceIdeal.Value.ops, after_append, Cert.ReferenceIdeal.Value.ops_part0, Cert.ReferenceIdeal.Value.ops_part1, Cert.ReferenceIdeal.Value.ops_part2,
    Cert.ReferenceIdeal.Value.ops_part3, Cert.ReferenceIdeal.Value.ops_part4]
  after_results_simp
  simp only [launchContents]
  rw [hx, hcb, hix]
  rfl

set_option maxHeartbeats 4000000 in
/-- Array 6: ids, index table (argument 15), codebook (argument 14). -/
theorem looked6_agree (hx : @Eq ((⟨Cert.ReferenceIdeal.S4096x39, .i32⟩ : BufTy).Contents (Elt Ideal)) (m' (c, Proc.devRef .tc Cert.ReferenceIdeal.main_arg0)) (m (c, Proc.devRef .tc Cert.KernelIdeal.main_arg0)))
    (hcb : @Eq ((⟨Cert.ReferenceIdeal.S19968x128, .f32⟩ : BufTy).Contents (Elt Ideal)) (m' (c, Proc.devRef .tc Cert.ReferenceIdeal.main_arg14)) (m (c, Proc.devRef .tc Cert.KernelIdeal.main_arg14)))
    (hix : @Eq ((⟨Cert.ReferenceIdeal.S390000x4, .i32⟩ : BufTy).Contents (Elt Ideal)) (m' (c, Proc.devRef .tc Cert.ReferenceIdeal.main_arg15)) (m (c, Proc.devRef .tc Cert.KernelIdeal.main_arg15))) :
    @Eq (FVec Ideal Sub4 .f32) (refLooked6 (launchContents m' c)) (looked6 m c) := by
  show @Eq (FVec Ideal Sub4 .f32)
    (after (Cert.ReferenceIdeal.Value.ops (F := Ideal)) (launchContents m' c) (Proc.devRef .tc Cert.ReferenceIdeal.main_v223))
    (after Cert.KernelIdeal.Gen.hostOps0 (fun b => m (c, b)) (Proc.devRef .tc Cert.KernelIdeal.main_v216))
  simp only [Cert.ReferenceIdeal.Value.ops, after_append, Cert.ReferenceIdeal.Value.ops_part0, Cert.ReferenceIdeal.Value.ops_part1, Cert.ReferenceIdeal.Value.ops_part2,
    Cert.ReferenceIdeal.Value.ops_part3, Cert.ReferenceIdeal.Value.ops_part4]
  after_results_simp
  simp only [launchContents]
  rw [hx, hcb, hix]
  rfl

end Cert.LookupAgree

end
-- ==== Proof.lean ====
/-
  The certificate's claim.

  The kernel gathers, for each of 4096 × 39 (sample, field) tokens, seven code words of 128 numbers — by the field's
  offset, an index table and a codebook, the code word whole, in halves or in quarters — and returns, per token, the
  sum of the seven code words each scaled by the field's weight from a 39 × 9 table. The looking-up is done by host
  lines; the scaling and adding by one region over 78 blocks of 2048 tokens, on the rows flattened, row by row:
  g₀·s₀ + g₁·s₁ + … + g₆·s₆, left to right. The reference does the same looking-up, keeps the four-axis shapes, and
  forms 0 + s₀·g₀ + s₁·g₁ + … + s₆·g₆, left to right.

  At the ideal instance both are the same function of the arguments, entry by entry: regroupings keep row-major
  positions, so both read the same entry of each looked-up array and the same entry of the table, and
  0 + x = x, x·y = y·x hold for all extended reals. The precondition (finite inputs) is not used.
  The ideal pass rewrote nothing, so the kernel's idealization is preserved trivially; the three frames are the
  generated frame runs (the reference's: its generated run with the result dropped).
-/
import proofs.«180089_j40759239639135_2_alg».proof.Defs
import proofs.«180089_j40759239639135_2_alg».proof.Proof.Gen.Kernel
import proofs.«180089_j40759239639135_2_alg».proof.Proof.Gen.Kernel.Skeleton
import proofs.«180089_j40759239639135_2_alg».proof.Proof.Gen.Kernel.Launch
import proofs.«180089_j40759239639135_2_alg».proof.Proof.Gen.Kernel.Points
import proofs.«180089_j40759239639135_2_alg».proof.Proof.Gen.Kernel.Frame
import proofs.«180089_j40759239639135_2_alg».proof.Proof.Gen.KernelIdeal
import proofs.«180089_j40759239639135_2_alg».proof.Proof.Gen.KernelIdeal.Skeleton
import proofs.«180089_j40759239639135_2_alg».proof.Proof.Gen.KernelIdeal.Launch
import proofs.«180089_j40759239639135_2_alg».proof.Proof.Gen.KernelIdeal.Points
import proofs.«180089_j40759239639135_2_alg».proof.Proof.Gen.KernelIdeal.Frame
import proofs.«180089_j40759239639135_2_alg».proof.Proof.Gen.ReferenceIdeal
import proofs.«180089_j40759239639135_2_alg».proof.Proof.Gen.ReferenceIdeal.Run
import proofs.«180089_j40759239639135_2_alg».proof.Proof.Gen.Pre_finite_inputs
import proofs.«180089_j40759239639135_2_alg».proof.Proof.WeightedRows
import proofs.«180089_j40759239639135_2_alg».proof.Proof.KernelValue
import proofs.«180089_j40759239639135_2_alg».proof.Proof.ReferenceValue
import proofs.«180089_j40759239639135_2_alg».proof.Proof.LookupAgree
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs and keeps its arguments: the generated frame. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference has no region: its frame is its generated run with the result dropped. -/
theorem frame_referenceIdeal : Cert.frame_ReferenceIdeal :=
  fun m ρ _ => (θ_run Cert.ReferenceIdeal.defs _ _).mono (fun _ h c => (h c).2)
    (Cert.ReferenceIdeal.Value.run (F := Ideal) m ρ)

/-- Both idealized programs end with the four-axis computation of the looked-up arrays and the table: the kernel's by its
    run read through the region and the regrouping; the reference's by its generated run, whose looked-up arrays and
    table are the kernel's where the arguments agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  refine ((Cert.ReferenceIdeal.Value.val5_main_v230 (launchContents m' c)).symm.trans
    (Cert.ReferenceIdeal.RefValue.result_eq (launchContents m' c))).trans ?_
  exact Cert.ReferenceIdeal.RefValue.sumOfWeighted_congr h1
    (Cert.LookupAgree.looked0_agree m m' c h0 h2 h3) (Cert.LookupAgree.looked1_agree m m' c h0 h4 h5)
    (Cert.LookupAgree.looked2_agree m m' c h0 h6 h7) (Cert.LookupAgree.looked3_agree m m' c h0 h8 h9)
    (Cert.LookupAgree.looked4_agree m m' c h0 h10 h11) (Cert.LookupAgree.looked5_agree m m' c h0 h12 h13)
    (Cert.LookupAgree.looked6_agree m m' c h0 h14 h15)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
